-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S32x64 : Shape := ⟨2, ![32, 64]⟩
abbrev S32 : Shape := ⟨1, ![32]⟩
abbrev S_ : Shape := ⟨0, ![]⟩
abbrev S1x1600000 : Shape := ⟨2, ![1, 1600000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  slices_S2x1600000_S1x1600000_1_0 : S2x1600000.Slices ![1, 0] S1x1600000
  shapeCasts_S1x1600000_S1600000 : S1x1600000.ShapeCasts S1600000

variable [Facts]

def fn_part3 {F : FTy → Type} [FloatOps F] (main_arg1 : IVec S2x1600000 32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : IVec S1x1600000 32 := (extractStridedSlice S1x1600000 ![1, 0] · slices_S2x1600000_S1x1600000_1_0) main_arg1
  let main_v55 : IVec S1600000 32 := shapeCast S1600000 main_v54 shapeCasts_S1x1600000_S1600000
  let main_c_20 : IVec S_ 32 := constantI S_ 32 0#32
  let main_v56 : IVec S1600000 32 := broadcastInDim S1600000 ![] bcast_S_S1600000 main_c_20
  let main_v57 : IVec S1600000 1 := cmpi .sge main_v55 main_v56
  let main_c_21 : IVec S_ 1 := constantI S_ 1 1#1
  let main_v58 : IVec S_ 1 := (fun x v => Host.reduce IntOp.andi x v reducesTo_S1600000_S_d0 h_S_) main_v57 main_c_21
  let main_v59 : IVec S_ 1 := andi main_v53 main_v58
  main_v59

def fn_part2 {F : FTy → Type} [FloatOps F] (main_arg1 : IVec S2x1600000 32) (main_arg8 : FVec F S64 .f32) (main_arg9 : FVec F S32x64 .f32) (main_arg10 : FVec F S32x64 .f32) (main_arg11 : FVec F S32 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S32x64 .f32 := Host.absf main_arg9
  let main_cst_14 : FVec F S_ .f32 := constant S_ .f32 0x7F800000#32
  let main_v40 : FVec F S32x64 .f32 := broadcastInDim S32x64 ![] bcast_S_S32x64 main_cst_14
  let main_v41 : IVec S32x64 1 := cmpf .olt main_v39 main_v40
  let main_c_15 : IVec S_ 1 := constantI S_ 1 1#1
  let main_v42 : IVec S_ 1 := (fun x v => Host.reduce IntOp.andi x v reducesTo_S32x64_S_d0_1 h_S_) main_v41 main_c_15
  let main_v43 : IVec S_ 1 := andi main_v38 main_v42
  let main_v44 : FVec F S32x64 .f32 := Host.absf main_arg10
  let main_cst_16 : FVec F S_ .f32 := constant S_ .f32 0x7F800000#32
  let main_v45 : FVec F S32x64 .f32 := broadcastInDim S32x64 ![] bcast_S_S32x64 main_cst_16
  let main_v46 : IVec S32x64 1 := cmpf .olt main_v44 main_v45
  let main_c_17 : IVec S_ 1 := constantI S_ 1 1#1
  let main_v47 : IVec S_ 1 := (fun x v => Host.reduce IntOp.andi x v reducesTo_S32x64_S_d0_1 h_S_) main_v46 main_c_17
  let main_v48 : IVec S_ 1 := andi main_v43 main_v47
  let main_v49 : FVec F S32 .f32 := Host.absf main_arg11
  let main_cst_18 : FVec F S_ .f32 := constant S_ .f32 0x7F800000#32
  let main_v50 : FVec F S32 .f32 := broadcastInDim S32 ![] bcast_S_S32 main_cst_18
  fn_part3 (F := F) main_arg1 main_v48 main_v49 main_v50

def fn_part1 {F : FTy → Type} [FloatOps F] (main_arg1 : IVec S2x1600000 32) (main_arg5 : FVec F S64 .f32) (main_arg6 : FVec F S64x64 .f32) (main_arg7 : FVec F S64x64 .f32) (main_arg8 : FVec F S64 .f32) (main_arg9 : FVec F S32x64 .f32) (main_arg10 : FVec F S32x64 .f32) (main_arg11 : FVec F S32 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg1 main_arg8 main_arg9 main_arg10 main_arg11 main_v33

def fn {F : FTy → Type} [FloatOps F] (main_arg0 : FVec F S100000x64 .f32) (main_arg1 : IVec S2x1600000 32) (main_arg2 : FVec F S1600000 .f32) (main_arg3 : FVec F S64x64 .f32) (main_arg4 : FVec F S64x64 .f32) (main_arg5 : FVec F S64 .f32) (main_arg6 : FVec F S64x64 .f32) (main_arg7 : FVec F S64x64 .f32) (main_arg8 : FVec F S64 .f32) (main_arg9 : FVec F S32x64 .f32) (main_arg10 : FVec F S32x64 .f32) (main_arg11 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg5 main_arg6 main_arg7 main_arg8 main_arg9 main_arg10 main_arg11 main_v13 main_v16
-- ==== Kernel.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S32x64 : Shape := ⟨2, ![32, 64]⟩
abbrev S32 : Shape := ⟨1, ![32]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S100000x128 : Shape := ⟨2, ![100000, 128]⟩
abbrev S128x64 : Shape := ⟨2, ![128, 64]⟩
abbrev S1x64 : Shape := ⟨2, ![1, 64]⟩
abbrev S20000x128 : Shape := ⟨2, ![20000, 128]⟩
abbrev S20000x64 : Shape := ⟨2, ![20000, 64]⟩
abbrev S64x32 : Shape := ⟨2, ![64, 32]⟩
abbrev S128x32 : Shape := ⟨2, ![128, 32]⟩
abbrev S1x32 : Shape := ⟨2, ![1, 32]⟩
abbrev S100000x32 : Shape := ⟨2, ![100000, 32]⟩
abbrev S20000x32 : Shape := ⟨2, ![20000, 32]⟩

abbrev nBuf : Space → Nat
  | .hbm => 123
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .f32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S32x64, .f32⟩
  | .hbm, ⟨10, _⟩ => ⟨S32x64, .f32⟩
  | .hbm, ⟨11, _⟩ => ⟨S32, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S_, .f32⟩
  | .hbm, ⟨34, _⟩ => ⟨S100000x64, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x64, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S100000x64, .f32⟩
  | .hbm, ⟨53, _⟩ => ⟨S100000x64, .f32⟩
  | .hbm, ⟨54, _⟩ => ⟨S100000x64, .f32⟩
  | .hbm, ⟨55, _⟩ => ⟨S100000x128, .f32⟩
  | .hbm, ⟨56, _⟩ => ⟨S100000x128, .bf16⟩
  | .hbm, ⟨57, _⟩ => ⟨S64x64, .f32⟩
  | .hbm, ⟨58, _⟩ => ⟨S64x64, .f32⟩
  | .hbm, ⟨59, _⟩ => ⟨S128x64, .f32⟩
  | .hbm, ⟨60, _⟩ => ⟨S128x64, .bf16⟩
  | .hbm, ⟨61, _⟩ => ⟨S1x64, .f32⟩
  | .hbm, ⟨62, _⟩ => ⟨S100000x64, .f32⟩
  | .hbm, ⟨63, _⟩ => ⟨S_, .f32⟩
  | .hbm, ⟨64, _⟩ => ⟨S100000x64, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000x64, .f32⟩
  | .hbm, ⟨74, _⟩ => ⟨S_, .i32⟩
  | .hbm, ⟨75, _⟩ => ⟨S1600000, .i32⟩
  | .hbm, ⟨76, _⟩ => ⟨S1600000, .i1⟩
  | .hbm, ⟨77, _⟩ => ⟨S_, .i32⟩
  | .hbm, ⟨78, _⟩ => ⟨S1600000, .i32⟩
  | .hbm, ⟨79, _⟩ => ⟨S1600000, .i32⟩
  | .hbm, ⟨80, _⟩ => ⟨S1600000, .i32⟩
  | .hbm, ⟨81, _⟩ => ⟨S1600000x1, .i32⟩
  | .hbm, ⟨82, _⟩ => ⟨S100000x64, .f32⟩
  | .hbm, ⟨83, _⟩ => ⟨S100000x64, .f32⟩
  | .hbm, ⟨84, _⟩ => ⟨S100000x64, .f32⟩
  | .hbm, ⟨85, _⟩ => ⟨S100000x128, .f32⟩
  | .hbm, ⟨86, _⟩ => ⟨S100000x128, .bf16⟩
  | .hbm, ⟨87, _⟩ => ⟨S64x64, .f32⟩
  | .hbm, ⟨88, _⟩ => ⟨S64x64, .f32⟩
  | .hbm, ⟨89, _⟩ => ⟨S128x64, .f32⟩
  | .hbm, ⟨90, _⟩ => ⟨S128x64, .bf16⟩
  | .hbm, ⟨91, _⟩ => ⟨S1x64, .f32⟩
  | .hbm, ⟨92, _⟩ => ⟨S100000x64, .f32⟩
  | .hbm, ⟨93, _⟩ => ⟨S_, .f32⟩
  | .hbm, ⟨94, _⟩ => ⟨S100000x64, .f32⟩
  | .hbm, ⟨95, _⟩ => ⟨S_, .i32⟩
  | .hbm, ⟨96, _⟩ => ⟨S1600000, .i32⟩
  | .hbm, ⟨97, _⟩ => ⟨S1600000, .i1⟩
  | .hbm, ⟨98, _⟩ => ⟨S_, .i32⟩
  | .hbm, ⟨99, _⟩ => ⟨S1600000, .i32⟩
  | .hbm, ⟨100, _⟩ => ⟨S1600000, .i32⟩
  | .hbm, ⟨101, _⟩ => ⟨S1600000, .i32⟩
  | .hbm, ⟨102, _⟩ => ⟨S1600000x1, .i32⟩
  | .hbm, ⟨103, _⟩ => ⟨S1600000x64, .f32⟩
  | .hbm, ⟨104, _⟩ => ⟨S_, .i32⟩
  | .hbm, ⟨105, _⟩ => ⟨S1600000, .i32⟩
  | .hbm, ⟨106, _⟩ => ⟨S1600000, .i1⟩
  | .hbm, ⟨107, _⟩ => ⟨S_, .i32⟩
  | .hbm, ⟨108, _⟩ => ⟨S1600000, .i32⟩
  | .hbm, ⟨109, _⟩ => ⟨S1600000, .i32⟩
  | .hbm, ⟨110, _⟩ => ⟨S1600000, .i32⟩
  | .hbm, ⟨111, _⟩ => ⟨S1600000x1, .i32⟩
  | .hbm, ⟨112, _⟩ => ⟨S100000x64, .f32⟩
  | .hbm, ⟨113, _⟩ => ⟨S100000x64, .f32⟩
  | .hbm, ⟨114, _⟩ => ⟨S100000x64, .f32⟩
  | .hbm, ⟨115, _⟩ => ⟨S100000x128, .f32⟩
  | .hbm, ⟨116, _⟩ => ⟨S100000x128, .bf16⟩
  | .hbm, ⟨117, _⟩ => ⟨S64x32, .f32⟩
  | .hbm, ⟨118, _⟩ => ⟨S64x32, .f32⟩
  | .hbm, ⟨119, _⟩ => ⟨S128x32, .f32⟩
  | .hbm, ⟨120, _⟩ => ⟨S128x32, .bf16⟩
  | .hbm, ⟨121, _⟩ => ⟨S1x32, .f32⟩
  | .hbm, ⟨122, _⟩ => ⟨S100000x32, .f32⟩
  | .local _ .vmem, ⟨0, _⟩ => ⟨S20000x128, .bf16⟩
  | .local _ .vmem, ⟨1, _⟩ => ⟨S20000x128, .bf16⟩
  | .local _ .vmem, ⟨2, _⟩ => ⟨S128x64, .bf16⟩
  | .local _ .vmem, ⟨3, _⟩ => ⟨S1x64, .f32⟩
  | .local _ .vmem, ⟨4, _⟩ => ⟨S20000x64, .f32⟩
  | .local _ .vmem, ⟨5, _⟩ => ⟨S20000x64, .f32⟩
  | .local _ .vmem, ⟨6, _⟩ => ⟨S20000x128, .bf16⟩
  | .local _ .vmem, ⟨7, _⟩ => ⟨S20000x128, .bf16⟩
  | .local _ .vmem, ⟨8, _⟩ => ⟨S128x64, .bf16⟩
  | .local _ .vmem, ⟨9, _⟩ => ⟨S1x64, .f32⟩
  | .local _ .vmem, ⟨10, _⟩ => ⟨S20000x64, .f32⟩
  | .local _ .vmem, ⟨11, _⟩ => ⟨S20000x64, .f32⟩
  | .local _ .vmem, ⟨12, _⟩ => ⟨S20000x128, .bf16⟩
  | .local _ .vmem, ⟨13, _⟩ => ⟨S20000x128, .bf16⟩
  | .local _ .vmem, ⟨14, _⟩ => ⟨S128x32, .bf16⟩
  | .local _ .vmem, ⟨15, _⟩ => ⟨S1x32, .f32⟩
  | .local _ .vmem, ⟨16, _⟩ => ⟨S20000x32, .f32⟩
  | .local _ .vmem, ⟨17, _⟩ => ⟨S20000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_c : Ref sig .tc := ⟨.hbm, 20, rfl⟩
abbrev main_v6 : Ref sig .tc := ⟨.hbm, 21, rfl⟩
abbrev main_v7 : Ref sig .tc := ⟨.hbm, 22, rfl⟩
abbrev main_c_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_v16 : Ref sig .tc := ⟨.hbm, 34, rfl⟩
abbrev main_c_4 : Ref sig .tc := ⟨.hbm, 35, rfl⟩
abbrev main_v17 : Ref sig .tc := ⟨.hbm, 36, rfl⟩
abbrev main_v18 : Ref sig .tc := ⟨.hbm, 37, rfl⟩
abbrev main_c_5 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_6 : Ref sig .tc := ⟨.hbm, 44, rfl⟩
abbrev main_v24 : Ref sig .tc := ⟨.hbm, 45, rfl⟩
abbrev main_v25 : Ref sig .tc := ⟨.hbm, 46, rfl⟩
abbrev main_c_7 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_c_9 : Ref sig .tc := ⟨.hbm, 65, rfl⟩
abbrev main_v42 : Ref sig .tc := ⟨.hbm, 66, rfl⟩
abbrev main_v43 : Ref sig .tc := ⟨.hbm, 67, rfl⟩
abbrev main_c_10 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_11 : Ref sig .tc := ⟨.hbm, 74, rfl⟩
abbrev main_v49 : Ref sig .tc := ⟨.hbm, 75, rfl⟩
abbrev main_v50 : Ref sig .tc := ⟨.hbm, 76, rfl⟩
abbrev main_c_12 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_13 : Ref sig .tc := ⟨.hbm, 93, rfl⟩
abbrev main_v66 : Ref sig .tc := ⟨.hbm, 94, rfl⟩
abbrev main_c_14 : Ref sig .tc := ⟨.hbm, 95, rfl⟩
abbrev main_v67 : Ref sig .tc := ⟨.hbm, 96, rfl⟩
abbrev main_v68 : Ref sig .tc := ⟨.hbm, 97, rfl⟩
abbrev main_c_15 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_c_16 : Ref sig .tc := ⟨.hbm, 104, rfl⟩
abbrev main_v74 : Ref sig .tc := ⟨.hbm, 105, rfl⟩
abbrev main_v75 : Ref sig .tc := ⟨.hbm, 106, rfl⟩
abbrev main_c_17 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S20000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S20000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S20000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x32 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S20000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  concatenates_S100000x64_S100000x64_S100000x128_d1 : Shape.Concatenates [S100000x64, S100000x64] S100000x128 1
  bitsLt_bf16_f32 : FTy.bits .bf16 < FTy.bits .f32
  transposes_S64x64_S64x64_1_0 : S64x64.Transposes [1, 0] S64x64
  concatenates_S64x64_S64x64_S128x64_d0 : Shape.Concatenates [S64x64, S64x64] S128x64 0
  shapeCasts_S64_S1x64 : S64.ShapeCasts S1x64
  inb_S20000x128_S20000x128_0_0 : ∀ a, (![0, 0] : Fin 2 → Nat) a + S20000x128.size a ≤ S20000x128.size a
  h_S20000x128 : 0 < S20000x128.numel
  shapeCasts_S20000x128_S20000x128 : S20000x128.ShapeCasts S20000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S20000x64 : S1x64.Broadcasts S20000x64
  inb_S20000x64_S20000x64_0_0 : ∀ a, (![0, 0] : Fin 2 → Nat) a + S20000x64.size a ≤ S20000x64.size a
  h_S20000x64 : 0 < S20000x64.numel
  transposes_S32x64_S64x32_1_0 : S32x64.Transposes [1, 0] S64x32
  concatenates_S64x32_S64x32_S128x32_d0 : Shape.Concatenates [S64x32, S64x32] S128x32 0
  shapeCasts_S32_S1x32 : S32.ShapeCasts S1x32
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S20000x32 : S1x32.Broadcasts S20000x32
  inb_S20000x32_S20000x32_0_0 : ∀ a, (![0, 0] : Fin 2 → Nat) a + S20000x32.size a ≤ S20000x32.size a
  h_S20000x32 : 0 < S20000x32.numel
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S20000x128_S128x64_S20000x64_1_0_0_1_n_n_wf : DotDims.WF S20000x128 S128x64 S20000x64 [1] [0] [0] [1] [] []
  dot_S20000x128_S128x32_S20000x32_1_0_0_1_n_n_wf : DotDims.WF S20000x128 S128x32 S20000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x128.size a ≤ S100000x128.size a
  hwx0_0 : ∀ i : grid0.Coords, EltTy.bits .bf16 = 32 ∨ (Rect.block (s := S100000x128) S20000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .bf16 = 32 ∨ (Rect.block (s := S128x64) S128x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S20000x64.size a ≤ S100000x64.size a
  hwx0_3 : ∀ i : grid0.Coords, EltTy.bits .f32 = 32 ∨ (Rect.block (s := S100000x64) S20000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x128.size a ≤ S100000x128.size a
  hwx1_0 : ∀ i : grid1.Coords, EltTy.bits .bf16 = 32 ∨ (Rect.block (s := S100000x128) S20000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .bf16 = 32 ∨ (Rect.block (s := S128x64) S128x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S20000x64.size a ≤ S100000x64.size a
  hwx1_3 : ∀ i : grid1.Coords, EltTy.bits .f32 = 32 ∨ (Rect.block (s := S100000x64) S20000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x128.size a ≤ S100000x128.size a
  hwx2_0 : ∀ i : grid2.Coords, EltTy.bits .bf16 = 32 ∨ (Rect.block (s := S100000x128) S20000x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x32.size a ≤ S128x32.size a
  hwx2_1 : ∀ i : grid2.Coords, EltTy.bits .bf16 = 32 ∨ (Rect.block (s := S128x32) S128x32.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S20000x32.size a ≤ S100000x32.size a
  hwx2_3 : ∀ i : grid2.Coords, EltTy.bits .f32 = 32 ∨ (Rect.block (s := S100000x32) S20000x32.size (cc2_transform_3 i) (hinb2_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S20000x128_S128x64_S20000x64_1_0_0_1_n_n : DotDims S20000x128 S128x64 S20000x64 where
  lhsContracting := [1]
  rhsContracting := [0]
  lhsNonContracting := [0]
  rhsNonContracting := [1]
  lhsBatch := []
  rhsBatch := []
  wf := dot_S20000x128_S128x64_S20000x64_1_0_0_1_n_n_wf
def dot_S20000x128_S128x32_S20000x32_1_0_0_1_n_n : DotDims S20000x128 S128x32 S20000x32 where
  lhsContracting := [1]
  rhsContracting := [0]
  lhsNonContracting := [0]
  rhsNonContracting := [1]
  lhsBatch := []
  rhsBatch := []
  wf := dot_S20000x128_S128x32_S20000x32_1_0_0_1_n_n_wf

abbrev win0_0 : Pipeline.Window sig grid0 :=
  Pipeline.Window.ofSpec (Memref.whole main_v34) S20000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v39) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v40) S20000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v59) S20000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v63) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v64) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v65) S20000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v84) S20000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v88) S128x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v89) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v90) S20000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S32x64 : Shape := ⟨2, ![32, 64]⟩
abbrev S32 : Shape := ⟨1, ![32]⟩
abbrev S1x1600000 : Shape := ⟨2, ![1, 1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S64x32 : Shape := ⟨2, ![64, 32]⟩
abbrev S100000x32 : Shape := ⟨2, ![100000, 32]⟩
abbrev S1x32 : Shape := ⟨2, ![1, 32]⟩

abbrev nBuf : Space → Nat
  | .hbm => 124
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .f32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S32x64, .f32⟩
  | .hbm, ⟨10, _⟩ => ⟨S32x64, .f32⟩
  | .hbm, ⟨11, _⟩ => ⟨S32, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x64, .f32⟩
  | .hbm, ⟨25, _⟩ => ⟨S_, .f32⟩
  | .hbm, ⟨26, _⟩ => ⟨S100000x64, .f32⟩
  | .hbm, ⟨27, _⟩ => ⟨S1600000x1, .i32⟩
  | .hbm, ⟨28, _⟩ => ⟨S100000x64, .f32⟩
  | .hbm, ⟨29, _⟩ => ⟨S_, .f32⟩
  | .hbm, ⟨30, _⟩ => ⟨S1600000, .f32⟩
  | .hbm, ⟨31, _⟩ => ⟨S_, .f32⟩
  | .hbm, ⟨32, _⟩ => ⟨S100000, .f32⟩
  | .hbm, ⟨33, _⟩ => ⟨S1600000x1, .i32⟩
  | .hbm, ⟨34, _⟩ => ⟨S100000, .f32⟩
  | .hbm, ⟨35, _⟩ => ⟨S_, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000x1, .f32⟩
  | .hbm, ⟨40, _⟩ => ⟨S100000x64, .f32⟩
  | .hbm, ⟨41, _⟩ => ⟨S100000x64, .f32⟩
  | .hbm, ⟨42, _⟩ => ⟨S64x64, .f32⟩
  | .hbm, ⟨43, _⟩ => ⟨S100000x64, .f32⟩
  | .hbm, ⟨44, _⟩ => ⟨S1x64, .f32⟩
  | .hbm, ⟨45, _⟩ => ⟨S100000x64, .f32⟩
  | .hbm, ⟨46, _⟩ => ⟨S100000x64, .f32⟩
  | .hbm, ⟨47, _⟩ => ⟨S64x64, .f32⟩
  | .hbm, ⟨48, _⟩ => ⟨S100000x64, .f32⟩
  | .hbm, ⟨49, _⟩ => ⟨S100000x64, .f32⟩
  | .hbm, ⟨50, _⟩ => ⟨S_, .f32⟩
  | .hbm, ⟨51, _⟩ => ⟨S100000x64, .f32⟩
  | .hbm, ⟨52, _⟩ => ⟨S100000x64, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x64, .f32⟩
  | .hbm, ⟨62, _⟩ => ⟨S_, .f32⟩
  | .hbm, ⟨63, _⟩ => ⟨S100000x64, .f32⟩
  | .hbm, ⟨64, _⟩ => ⟨S1600000x1, .i32⟩
  | .hbm, ⟨65, _⟩ => ⟨S100000x64, .f32⟩
  | .hbm, ⟨66, _⟩ => ⟨S_, .f32⟩
  | .hbm, ⟨67, _⟩ => ⟨S1600000, .f32⟩
  | .hbm, ⟨68, _⟩ => ⟨S_, .f32⟩
  | .hbm, ⟨69, _⟩ => ⟨S100000, .f32⟩
  | .hbm, ⟨70, _⟩ => ⟨S1600000x1, .i32⟩
  | .hbm, ⟨71, _⟩ => ⟨S100000, .f32⟩
  | .hbm, ⟨72, _⟩ => ⟨S_, .f32⟩
  | .hbm, ⟨73, _⟩ => ⟨S_, .f32⟩
  | .hbm, ⟨74, _⟩ => ⟨S100000, .f32⟩
  | .hbm, ⟨75, _⟩ => ⟨S100000, .f32⟩
  | .hbm, ⟨76, _⟩ => ⟨S100000x1, .f32⟩
  | .hbm, ⟨77, _⟩ => ⟨S100000x64, .f32⟩
  | .hbm, ⟨78, _⟩ => ⟨S100000x64, .f32⟩
  | .hbm, ⟨79, _⟩ => ⟨S64x64, .f32⟩
  | .hbm, ⟨80, _⟩ => ⟨S100000x64, .f32⟩
  | .hbm, ⟨81, _⟩ => ⟨S1x64, .f32⟩
  | .hbm, ⟨82, _⟩ => ⟨S100000x64, .f32⟩
  | .hbm, ⟨83, _⟩ => ⟨S100000x64, .f32⟩
  | .hbm, ⟨84, _⟩ => ⟨S64x64, .f32⟩
  | .hbm, ⟨85, _⟩ => ⟨S100000x64, .f32⟩
  | .hbm, ⟨86, _⟩ => ⟨S100000x64, .f32⟩
  | .hbm, ⟨87, _⟩ => ⟨S_, .f32⟩
  | .hbm, ⟨88, _⟩ => ⟨S100000x64, .f32⟩
  | .hbm, ⟨89, _⟩ => ⟨S100000x64, .f32⟩
  | .hbm, ⟨90, _⟩ => ⟨S_, .i32⟩
  | .hbm, ⟨91, _⟩ => ⟨S1600000, .i32⟩
  | .hbm, ⟨92, _⟩ => ⟨S1600000, .i1⟩
  | .hbm, ⟨93, _⟩ => ⟨S_, .i32⟩
  | .hbm, ⟨94, _⟩ => ⟨S1600000, .i32⟩
  | .hbm, ⟨95, _⟩ => ⟨S1600000, .i32⟩
  | .hbm, ⟨96, _⟩ => ⟨S1600000, .i32⟩
  | .hbm, ⟨97, _⟩ => ⟨S1600000x1, .i32⟩
  | .hbm, ⟨98, _⟩ => ⟨S1600000x64, .f32⟩
  | .hbm, ⟨99, _⟩ => ⟨S_, .f32⟩
  | .hbm, ⟨100, _⟩ => ⟨S100000x64, .f32⟩
  | .hbm, ⟨101, _⟩ => ⟨S1600000x1, .i32⟩
  | .hbm, ⟨102, _⟩ => ⟨S100000x64, .f32⟩
  | .hbm, ⟨103, _⟩ => ⟨S_, .f32⟩
  | .hbm, ⟨104, _⟩ => ⟨S1600000, .f32⟩
  | .hbm, ⟨105, _⟩ => ⟨S_, .f32⟩
  | .hbm, ⟨106, _⟩ => ⟨S100000, .f32⟩
  | .hbm, ⟨107, _⟩ => ⟨S1600000x1, .i32⟩
  | .hbm, ⟨108, _⟩ => ⟨S100000, .f32⟩
  | .hbm, ⟨109, _⟩ => ⟨S_, .f32⟩
  | .hbm, ⟨110, _⟩ => ⟨S_, .f32⟩
  | .hbm, ⟨111, _⟩ => ⟨S100000, .f32⟩
  | .hbm, ⟨112, _⟩ => ⟨S100000, .f32⟩
  | .hbm, ⟨113, _⟩ => ⟨S100000x1, .f32⟩
  | .hbm, ⟨114, _⟩ => ⟨S100000x64, .f32⟩
  | .hbm, ⟨115, _⟩ => ⟨S100000x64, .f32⟩
  | .hbm, ⟨116, _⟩ => ⟨S64x32, .f32⟩
  | .hbm, ⟨117, _⟩ => ⟨S100000x32, .f32⟩
  | .hbm, ⟨118, _⟩ => ⟨S1x32, .f32⟩
  | .hbm, ⟨119, _⟩ => ⟨S100000x32, .f32⟩
  | .hbm, ⟨120, _⟩ => ⟨S100000x32, .f32⟩
  | .hbm, ⟨121, _⟩ => ⟨S64x32, .f32⟩
  | .hbm, ⟨122, _⟩ => ⟨S100000x32, .f32⟩
  | .hbm, ⟨123, _⟩ => ⟨S100000x32, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_call1_cst : Ref sig .tc := ⟨.hbm, 50, rfl⟩
abbrev main_call1_v0 : Ref sig .tc := ⟨.hbm, 51, rfl⟩
abbrev main_v30 : Ref sig .tc := ⟨.hbm, 52, rfl⟩
abbrev main_c_4 : Ref sig .tc := ⟨.hbm, 53, rfl⟩
abbrev main_v31 : Ref sig .tc := ⟨.hbm, 54, rfl⟩
abbrev main_v32 : Ref sig .tc := ⟨.hbm, 55, rfl⟩
abbrev main_c_5 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_6 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_7 : Ref sig .tc := ⟨.hbm, 66, rfl⟩
abbrev main_v41 : Ref sig .tc := ⟨.hbm, 67, rfl⟩
abbrev main_cst_8 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_9 : Ref sig .tc := ⟨.hbm, 72, rfl⟩
abbrev main_call2_v0 : Ref sig .tc := ⟨.hbm, 73, rfl⟩
abbrev main_call2_v1 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_call3_cst : Ref sig .tc := ⟨.hbm, 87, rfl⟩
abbrev main_call3_v0 : Ref sig .tc := ⟨.hbm, 88, rfl⟩
abbrev main_v57 : Ref sig .tc := ⟨.hbm, 89, rfl⟩
abbrev main_c_10 : Ref sig .tc := ⟨.hbm, 90, rfl⟩
abbrev main_v58 : Ref sig .tc := ⟨.hbm, 91, rfl⟩
abbrev main_v59 : Ref sig .tc := ⟨.hbm, 92, rfl⟩
abbrev main_c_11 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_12 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_13 : Ref sig .tc := ⟨.hbm, 103, rfl⟩
abbrev main_v68 : Ref sig .tc := ⟨.hbm, 104, rfl⟩
abbrev main_cst_14 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_cst_15 : Ref sig .tc := ⟨.hbm, 109, rfl⟩
abbrev main_call4_v0 : Ref sig .tc := ⟨.hbm, 110, rfl⟩
abbrev main_call4_v1 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S32x64_S64x32_1_0 : S32x64.Transposes [1, 0] S64x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.KernelRun.lean ====
/-
  The idealized kernel program runs to completion, and what it leaves in its result buffer is named.

  The program is three launches of the dense layer body among stretches of host operations.  Its run is followed
  boundary by boundary: `W0` is the memory at launch, `W1` the memory after the first stretch of host operations, `W2`
  the memory after the first launch (the launch's arrays at what its grid points wrote back, every other buffer
  untouched), and so on to `W6` after the third launch.  Every weakly fair execution terminates without a fault in a
  state whose unscoped buffers hold `W6`; read at the result buffer this names the program's result, and read at an
  argument it gives back the argument as launched.
-/
import proofs.«136993_j13142599925969_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends, nothing faulting, with the result buffer at the last boundary's
    contents `W6` and every argument as launched. -/
theorem run_named : θ_run defs (onTc (τ := τ) (main (F := F))) ⟨m, fun _ => 0, ρ⟩ (fun r => ∀ c : Dev nD,
      r.2.mem ((c.tc : Thread nD τ).loc main_v90) = W6 m ρ c (Proc.devRef .tc main_v90)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v90 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.KernelIdeal.RunValue

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.LibDenseRows.lean ====
/-
  A reusable lemma: a dense layer's body on the matrix unit, read at an entry.

  The body multiplies an [M, K] block by a [K, N] matrix into a zero accumulator, adds a [1, N] bias row spread down the
  M rows, and may clamp the result below at zero.  Over the extended reals, at the output entry (p, q),

      affine[p, q]  = ( Σ_{k < K} x[p, k] · w[k, q] ) + b[0, q],        clamped[p, q] = max(affine[p, q], 0).

  The three operands pass through shape casts to their own shapes first, as a lowered body spells them; those are the
  identity.  Generic in M, K, N and in the operands' float formats; the dimension record may be any one equal to the
  plain M×K by K×N record.
-/
import proofs.«136993_j13142599925969_2_alg».proof.Proof.LibMatmulNN
import Idealize.ShloMosaic.Lib.ValueLayout
import Idealize.ShloMosaic.Lib.Pipeline.Value

noncomputable section

namespace Cert.DenseRows

open Idealize.ShloMosaic Idealize.ShloMosaic.ValueIdx

variable {M K N : ℕ} {φ₁ φ₂ : FTy}

/-- The product plus the spread bias row, at (p, q). -/
theorem affine_apply (D : DotDims ⟨2, ![M, K]⟩ ⟨2, ![K, N]⟩ ⟨2, ![M, N]⟩) (hD : D = DotDims.plain M K N)
    (prec : Option ContractPrecision)
    (x : FVec Ideal ⟨2, ![M, K]⟩ φ₁) (w : FVec Ideal ⟨2, ![K, N]⟩ φ₂) (b : FVec Ideal ⟨2, ![1, N]⟩ .f32)
    (hx : (⟨2, ![M, K]⟩ : Shape).ShapeCasts ⟨2, ![M, K]⟩) (hw : (⟨2, ![K, N]⟩ : Shape).ShapeCasts ⟨2, ![K, N]⟩)
    (hb : (⟨2, ![1, N]⟩ : Shape).ShapeCasts ⟨2, ![1, N]⟩) (hbc : (⟨2, ![1, N]⟩ : Shape).Broadcasts ⟨2, ![M, N]⟩)
    (p : Fin M) (q : Fin N) :
    addf (matmul D prec (shapeCast ⟨2, ![M, K]⟩ x hx) (shapeCast ⟨2, ![K, N]⟩ w hw)
            (constant (F := Ideal) ⟨2, ![M, N]⟩ .f32 0x00000000#32))
         (broadcastTo ⟨2, ![M, N]⟩ (shapeCast ⟨2, ![1, N]⟩ b hb) hbc) (ix2 p q)
      = (∑ k : Fin K, x (ix2 p k) * w (ix2 k q)) + b (ix2 (0 : Fin 1) q) := by
  rw [addf_apply, shapeCast_self, shapeCast_self, shapeCast_self, broadcastTo_1b_ab_apply]
  exact congrArg (· + b (ix2 (0 : Fin 1) q)) (MatmulNN.matmul_zero_apply D hD prec x w p q)

/-- The same, clamped below at the float zero spread from a scalar. -/
theorem clamped_apply (D : DotDims ⟨2, ![M, K]⟩ ⟨2, ![K, N]⟩ ⟨2, ![M, N]⟩) (hD : D = DotDims.plain M K N)
    (prec : Option ContractPrecision)
    (x : FVec Ideal ⟨2, ![M, K]⟩ φ₁) (w : FVec Ideal ⟨2, ![K, N]⟩ φ₂) (b : FVec Ideal ⟨2, ![1, N]⟩ .f32)
    (hx : (⟨2, ![M, K]⟩ : Shape).ShapeCasts ⟨2, ![M, K]⟩) (hw : (⟨2, ![K, N]⟩ : Shape).ShapeCasts ⟨2, ![K, N]⟩)
    (hb : (⟨2, ![1, N]⟩ : Shape).ShapeCasts ⟨2, ![1, N]⟩) (hbc : (⟨2, ![1, N]⟩ : Shape).Broadcasts ⟨2, ![M, N]⟩)
    (p : Fin M) (q : Fin N) :
    maximumf
        (addf (matmul D prec (shapeCast ⟨2, ![M, K]⟩ x hx) (shapeCast ⟨2, ![K, N]⟩ w hw)
                (constant (F := Ideal) ⟨2, ![M, N]⟩ .f32 0x00000000#32))
              (broadcastTo ⟨2, ![M, N]⟩ (shapeCast ⟨2, ![1, N]⟩ b hb) hbc))
        (broadcast ⟨2, ![M, N]⟩ (Scalar.ofBits (F := Ideal) .f32 0x00000000#32)) (ix2 p q)
      = max ((∑ k : Fin K, x (ix2 p k) * w (ix2 k q)) + b (ix2 (0 : Fin 1) q)) (Ideal.ofBits .f32 0x00000000#32) := by
  rw [maximumf_apply, affine_apply D hD prec x w b hx hw hb hbc p q]
  rfl

end Cert.DenseRows

end
-- ==== Proof.DenseArray.lean ====
/-
  The dense step of a layer as a function of whole arrays, entry by entry.

  For a feature array of 100000 rows and 128 columns (a node's neighbour mean beside its own features), a 128-by-D weight
  matrix (the two weight matrices, each transposed, one above the other) and a one-row bias:

      dense[r, q] = ( Σ_{j < 128} feat[r, j] · w[j, q] ) + b[0, q],   clamped below at zero when `relu` is set.

  Every launch of the layer body computes a block of 20000 consecutive rows of this one function.
-/
import Idealize.ShloMosaic.PureOps.Ideal
import Idealize.ShloMosaic.Lib.ValueIdx

noncomputable section

namespace Cert.Sage

open Idealize.ShloMosaic Idealize.ShloMosaic.ValueIdx

variable {D : ℕ}

/-- The affine part of the dense step at (r, q). -/
def affineAt (feat : FVec Ideal ⟨2, ![100000, 128]⟩ .bf16) (w : FVec Ideal ⟨2, ![128, D]⟩ .bf16)
    (b : FVec Ideal ⟨2, ![1, D]⟩ .f32) (r : Fin 100000) (q : Fin D) : EReal :=
  (∑ j : Fin 128, feat (ix2 r j) * w (ix2 j q)) + b (ix2 (0 : Fin 1) q)

/-- The dense step at (r, q). -/
def denseAt (relu : Bool) (feat : FVec Ideal ⟨2, ![100000, 128]⟩ .bf16) (w : FVec Ideal ⟨2, ![128, D]⟩ .bf16)
    (b : FVec Ideal ⟨2, ![1, D]⟩ .f32) (r : Fin 100000) (q : Fin D) : EReal :=
  if relu = true then max (affineAt feat w b r q) (Ideal.ofBits .f32 0x00000000#32) else affineAt feat w b r q

/-- The dense step as a whole array. -/
def dense (relu : Bool) (feat : FVec Ideal ⟨2, ![100000, 128]⟩ .bf16) (w : FVec Ideal ⟨2, ![128, D]⟩ .bf16)
    (b : FVec Ideal ⟨2, ![1, D]⟩ .f32) : FVec Ideal ⟨2, ![100000, D]⟩ .f32 :=
  fun i => denseAt relu feat w b ⟨(i 0).val, (i 0).isLt⟩ ⟨(i 1).val, (i 1).isLt⟩

theorem dense_apply (relu : Bool) (feat : FVec Ideal ⟨2, ![100000, 128]⟩ .bf16) (w : FVec Ideal ⟨2, ![128, D]⟩ .bf16)
    (b : FVec Ideal ⟨2, ![1, D]⟩ .f32) (r : Fin 100000) (q : Fin D) :
    dense relu feat w b (ix2 r q) = denseAt relu feat w b r q := rfl

theorem denseAt_true (feat : FVec Ideal ⟨2, ![100000, 128]⟩ .bf16) (w : FVec Ideal ⟨2, ![128, D]⟩ .bf16)
    (b : FVec Ideal ⟨2, ![1, D]⟩ .f32) (r : Fin 100000) (q : Fin D) :
    denseAt true feat w b r q = max (affineAt feat w b r q) (Ideal.ofBits .f32 0x00000000#32) := if_pos rfl

theorem denseAt_false (feat : FVec Ideal ⟨2, ![100000, 128]⟩ .bf16) (w : FVec Ideal ⟨2, ![128, D]⟩ .bf16)
    (b : FVec Ideal ⟨2, ![1, D]⟩ .f32) (r : Fin 100000) (q : Fin D) :
    denseAt false feat w b r q = affineAt feat w b r q := if_neg (by decide)

end Cert.Sage

end
-- ==== Proof.Region0.lean ====
/-
  Launch 1 of the dense layer body: what its grid points leave in the output array.

  The launch has five grid points.  Point t is handed rows 20000·t … 20000·t + 19999 of the feature array (all 128
  columns), the whole 128-by-64 weight matrix and the whole one-row bias, and writes rows 20000·t … 20000·t + 19999 of
  the output (all 64 columns).  At an entry (r, q) of its block the body computes
  ( Σ_{j < 128} block[r, j] · w[j, q] ) + b[0, q], clamped below at zero; since block[r, j] is the feature array at
  (20000·t + r, j), that is the dense step of the WHOLE arrays at (20000·t + r, q).  So every point writes back the
  corresponding block of one whole-array function, the five blocks tile the 100000 rows (row i belongs to point
  i / 20000), and the output array ends equal to that function of the arrays the launch found.
  The arrays are taken as the launch finds them (`V`), whatever wrote them.
-/
import proofs.«136993_j13142599925969_2_alg».proof.Proof.Gen.KernelIdeal.Frame
import proofs.«136993_j13142599925969_2_alg».proof.Proof.LibDenseRows
import proofs.«136993_j13142599925969_2_alg».proof.Proof.DenseArray

set_option maxRecDepth 16384

noncomputable section

namespace Cert.KernelIdeal.Region0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value at an entry (r, q) of its block: row r of the feature block against column q of the weights,
    plus the bias at q, clamped below at zero. -/
theorem pay_apply (x0 : FVec Ideal S20000x128 .bf16) (x1 : FVec Ideal S128x64 .bf16) (x2 : FVec Ideal S1x64 .f32)
    (r : Fin 20000) (q : Fin 64) :
    k0_pay1 (F := Ideal) x0 x1 x2 (ix2 r q)
      = max ((∑ k : Fin 128, x0 (ix2 r k) * x1 (ix2 k q)) + x2 (ix2 (0 : Fin 1) q)) (Ideal.ofBits .f32 0x00000000#32) := by
  unfold k0_pay1
  exact DenseRows.clamped_apply dot_S20000x128_S128x64_S20000x64_1_0_0_1_n_n rfl none x0 x1 x2 _ _ _ _ r q

/-- Where each window's block sits at grid point t: the feature and output blocks at block row t, the weights and the
    bias always at their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The grid has five points. -/
theorem hN : cfg0.N = 5 := rfl

/-- The feature block at point t, entry (r, k), is the feature array at (20000·t + r, k). -/
theorem read0 (c : Dev nD) (t : Fin cfg0.N) (r : Fin 20000) (k : Fin 128) :
    iblk0 V c 0 t (ix2 r k)
      = V c main_v34 (ix2 (⟨t.val * 20000 + r.val, by have := t.isLt; have := hN; have := r.isLt; omega⟩ : Fin 100000) k) := by
  unfold iblk0
  show V c main_v34 (((cfg0.win 0).blk t).view.emb (ix2 r k)) = _
  refine congrArg (V c main_v34) ?_
  obtain ⟨e0, e1, -⟩ := idx_facts t
  funext a; apply Fin.ext
  match a with
  | ⟨0, _⟩ => show win0_0.index t (0 : Fin 2) * 20000 + 1 * r.val = t.val * 20000 + r.val; rw [e0]; omega
  | ⟨1, _⟩ => show win0_0.index t (1 : Fin 2) * 128 + 1 * k.val = k.val; rw [e1]; omega

/-- The weight block at any point is the whole weight matrix. -/
theorem read1 (c : Dev nD) (t : Fin cfg0.N) (k : Fin 128) (q : Fin 64) :
    iblk0 V c 1 t (ix2 k q) = V c main_v38 (ix2 k q) := by
  unfold iblk0
  show V c main_v38 (((cfg0.win 1).blk t).view.emb (ix2 k q)) = _
  refine congrArg (V c main_v38) ?_
  obtain ⟨-, -, e0, e1, -⟩ := idx_facts t
  funext a; apply Fin.ext
  match a with
  | ⟨0, _⟩ => show win0_1.index t (0 : Fin 2) * 128 + 1 * k.val = k.val; rw [e0]; omega
  | ⟨1, _⟩ => show win0_1.index t (1 : Fin 2) * 64 + 1 * q.val = q.val; rw [e1]; omega

/-- The bias block at any point is the whole bias row. -/
theorem read2 (c : Dev nD) (t : Fin cfg0.N) (q : Fin 64) :
    iblk0 V c 2 t (ix2 (0 : Fin 1) q) = V c main_v39 (ix2 (0 : Fin 1) q) := by
  unfold iblk0
  show V c main_v39 (((cfg0.win 2).blk t).view.emb (ix2 (0 : Fin 1) q)) = _
  refine congrArg (V c main_v39) ?_
  obtain ⟨-, -, -, -, e0, e1, -⟩ := idx_facts t
  funext a; apply Fin.ext
  match a with
  | ⟨0, _⟩ => show win0_2.index t (0 : Fin 2) * 1 + 1 * 0 = 0; rw [e0]
  | ⟨1, _⟩ => show win0_2.index t (1 : Fin 2) * 64 + 1 * q.val = q.val; rw [e1]; omega

/-- Entry (r, q) of the output block at point t sits at (20000·t + r, q) of the output array. -/
theorem emb3 (t : Fin cfg0.N) (r : Fin 20000) (q : Fin 64) :
    ((cfg0.win 3).blk t).view.emb (ix2 r q)
      = ix2 (⟨t.val * 20000 + r.val, by have := t.isLt; have := hN; have := r.isLt; omega⟩ : Fin 100000) q := by
  obtain ⟨-, -, -, -, -, -, e0, e1⟩ := idx_facts t
  funext a; apply Fin.ext
  match a with
  | ⟨0, _⟩ => show win0_3.index t (0 : Fin 2) * 20000 + 1 * r.val = t.val * 20000 + r.val; rw [e0]; omega
  | ⟨1, _⟩ => show win0_3.index t (1 : Fin 2) * 64 + 1 * q.val = q.val; rw [e1]; omega

/-- What point t writes back is block t of the dense step of the arrays the launch found. -/
theorem flushed_eq (c : Dev nD) (t : Fin cfg0.N) :
    (dat0 V c).flushed 3 t
      = ((cfg0.win 3).blk t).view.read (Elt Ideal) (Sage.dense true (V c main_v34) (V c main_v38) (V c main_v39)) := by
  show (cfg0.win 3).cut (grid0.coords t) ((dat0 V c).after 3 t) = _
  rw [after0_3]
  unfold out0_3
  rw [View.canon_unit_zero hz]
  simp only [View.ld_unit_zero (S := S20000x128) hz, View.ld_unit_zero (S := S128x64) hz, View.ld_unit_zero (S := S1x64) hz]
  funext j
  obtain ⟨r, q, rfl⟩ : ∃ (r : Fin 20000) (q : Fin 64), j = ix2 r q := ⟨j 0, j 1, eq_ix2 j⟩
  show k0_pay1 (F := Ideal) (iblk0 V c 0 t) (iblk0 V c 1 t) (iblk0 V c 2 t) (ix2 r q)
      = Sage.dense true (V c main_v34) (V c main_v38) (V c main_v39) (((cfg0.win 3).blk t).view.emb (ix2 r q))
  refine (pay_apply (iblk0 V c 0 t) (iblk0 V c 1 t) (iblk0 V c 2 t) r q).trans ?_
  rw [emb3 t r q, Sage.dense_apply, Sage.denseAt_true]
  unfold Sage.affineAt
  rw [read2 V c t q]
  refine congrArg (fun s => max (s + V c main_v39 (ix2 (0 : Fin 1) q)) (Ideal.ofBits .f32 0x00000000#32)) ?_
  exact Finset.sum_congr rfl fun k _ => by rw [read0 V c t r k, read1 V c t k q]

/-- An index of the output array is in point t's block exactly when each coordinate is in the block's range. -/
theorem mem_blk (t : Fin cfg0.N) (i : S100000x64.Idx) :
    i ∈ ((cfg0.win 3).blk t).view.set ↔ ∀ a : Fin 2, win0_3.index t a * S20000x64.size a ≤ (i a).val ∧ (i a).val < win0_3.index t a * S20000x64.size a + S20000x64.size a := by
  show i ∈ ((View.whole main_v40).slice (win0_3.rect t)).set ↔ _
  rw [View.set_slice_whole, Rect.mem_set_unit]
  exact Iff.rfl

/-- The blocks tile the output: row i is in the block of point i / 20000. -/
theorem cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have ht : (i 0).val / 20000 < cfg0.N := by rw [hN]; omega
  refine ⟨⟨(i 0).val / 20000, ht⟩, flush0_3 _, ?_⟩
  rw [mem_blk]
  obtain ⟨-, -, -, -, -, -, e0, e1⟩ := idx_facts ⟨(i 0).val / 20000, ht⟩
  intro a
  match a with
  | ⟨0, _⟩ =>
    show win0_3.index ⟨(i 0).val / 20000, ht⟩ (0 : Fin 2) * 20000 ≤ (i 0).val
      ∧ (i 0).val < win0_3.index ⟨(i 0).val / 20000, ht⟩ (0 : Fin 2) * 20000 + 20000
    rw [e0]
    show (i 0).val / 20000 * 20000 ≤ (i 0).val ∧ (i 0).val < (i 0).val / 20000 * 20000 + 20000
    omega
  | ⟨1, _⟩ =>
    show win0_3.index ⟨(i 0).val / 20000, ht⟩ (1 : Fin 2) * 64 ≤ (i 1).val
      ∧ (i 1).val < win0_3.index ⟨(i 0).val / 20000, ht⟩ (1 : Fin 2) * 64 + 64
    rw [e1]
    omega

/-- The output array after the launch is the dense step of the arrays the launch found. -/
theorem final (c : Dev nD) :
    (dat0 V c).arrAt 3 cfg0.N = Sage.dense true (V c main_v34) (V c main_v38) (V c main_v39) :=
  (dat0 V c).arrAt_eq_of_cover 3 _ (fun t _ => flushed_eq V c t) cover

end Cert.KernelIdeal.Region0

end
-- ==== Proof.Region1.lean ====
/-
  Launch 2 of the dense layer body: what its grid points leave in the output array.

  The launch has five grid points.  Point t is handed rows 20000·t … 20000·t + 19999 of the feature array (all 128
  columns), the whole 128-by-64 weight matrix and the whole one-row bias, and writes rows 20000·t … 20000·t + 19999 of
  the output (all 64 columns).  At an entry (r, q) of its block the body computes
  ( Σ_{j < 128} block[r, j] · w[j, q] ) + b[0, q], clamped below at zero; since block[r, j] is the feature array at
  (20000·t + r, j), that is the dense step of the WHOLE arrays at (20000·t + r, q).  So every point writes back the
  corresponding block of one whole-array function, the five blocks tile the 100000 rows (row i belongs to point
  i / 20000), and the output array ends equal to that function of the arrays the launch found.
  The arrays are taken as the launch finds them (`V`), whatever wrote them.
-/
import proofs.«136993_j13142599925969_2_alg».proof.Proof.Gen.KernelIdeal.Frame
import proofs.«136993_j13142599925969_2_alg».proof.Proof.LibDenseRows
import proofs.«136993_j13142599925969_2_alg».proof.Proof.DenseArray

set_option maxRecDepth 16384

noncomputable section

namespace Cert.KernelIdeal.Region1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value at an entry (r, q) of its block: row r of the feature block against column q of the weights,
    plus the bias at q, clamped below at zero. -/
theorem pay_apply (x0 : FVec Ideal S20000x128 .bf16) (x1 : FVec Ideal S128x64 .bf16) (x2 : FVec Ideal S1x64 .f32)
    (r : Fin 20000) (q : Fin 64) :
    k1_pay1 (F := Ideal) x0 x1 x2 (ix2 r q)
      = max ((∑ k : Fin 128, x0 (ix2 r k) * x1 (ix2 k q)) + x2 (ix2 (0 : Fin 1) q)) (Ideal.ofBits .f32 0x00000000#32) := by
  unfold k1_pay1
  exact DenseRows.clamped_apply dot_S20000x128_S128x64_S20000x64_1_0_0_1_n_n rfl none x0 x1 x2 _ _ _ _ r q

/-- Where each window's block sits at grid point t: the feature and output blocks at block row t, the weights and the
    bias always at their one block. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The grid has five points. -/
theorem hN : cfg1.N = 5 := rfl

/-- The feature block at point t, entry (r, k), is the feature array at (20000·t + r, k). -/
theorem read0 (c : Dev nD) (t : Fin cfg1.N) (r : Fin 20000) (k : Fin 128) :
    iblk1 V c 0 t (ix2 r k)
      = V c main_v59 (ix2 (⟨t.val * 20000 + r.val, by have := t.isLt; have := hN; have := r.isLt; omega⟩ : Fin 100000) k) := by
  unfold iblk1
  show V c main_v59 (((cfg1.win 0).blk t).view.emb (ix2 r k)) = _
  refine congrArg (V c main_v59) ?_
  obtain ⟨e0, e1, -⟩ := idx_facts t
  funext a; apply Fin.ext
  match a with
  | ⟨0, _⟩ => show win1_0.index t (0 : Fin 2) * 20000 + 1 * r.val = t.val * 20000 + r.val; rw [e0]; omega
  | ⟨1, _⟩ => show win1_0.index t (1 : Fin 2) * 128 + 1 * k.val = k.val; rw [e1]; omega

/-- The weight block at any point is the whole weight matrix. -/
theorem read1 (c : Dev nD) (t : Fin cfg1.N) (k : Fin 128) (q : Fin 64) :
    iblk1 V c 1 t (ix2 k q) = V c main_v63 (ix2 k q) := by
  unfold iblk1
  show V c main_v63 (((cfg1.win 1).blk t).view.emb (ix2 k q)) = _
  refine congrArg (V c main_v63) ?_
  obtain ⟨-, -, e0, e1, -⟩ := idx_facts t
  funext a; apply Fin.ext
  match a with
  | ⟨0, _⟩ => show win1_1.index t (0 : Fin 2) * 128 + 1 * k.val = k.val; rw [e0]; omega
  | ⟨1, _⟩ => show win1_1.index t (1 : Fin 2) * 64 + 1 * q.val = q.val; rw [e1]; omega

/-- The bias block at any point is the whole bias row. -/
theorem read2 (c : Dev nD) (t : Fin cfg1.N) (q : Fin 64) :
    iblk1 V c 2 t (ix2 (0 : Fin 1) q) = V c main_v64 (ix2 (0 : Fin 1) q) := by
  unfold iblk1
  show V c main_v64 (((cfg1.win 2).blk t).view.emb (ix2 (0 : Fin 1) q)) = _
  refine congrArg (V c main_v64) ?_
  obtain ⟨-, -, -, -, e0, e1, -⟩ := idx_facts t
  funext a; apply Fin.ext
  match a with
  | ⟨0, _⟩ => show win1_2.index t (0 : Fin 2) * 1 + 1 * 0 = 0; rw [e0]
  | ⟨1, _⟩ => show win1_2.index t (1 : Fin 2) * 64 + 1 * q.val = q.val; rw [e1]; omega

/-- Entry (r, q) of the output block at point t sits at (20000·t + r, q) of the output array. -/
theorem emb3 (t : Fin cfg1.N) (r : Fin 20000) (q : Fin 64) :
    ((cfg1.win 3).blk t).view.emb (ix2 r q)
      = ix2 (⟨t.val * 20000 + r.val, by have := t.isLt; have := hN; have := r.isLt; omega⟩ : Fin 100000) q := by
  obtain ⟨-, -, -, -, -, -, e0, e1⟩ := idx_facts t
  funext a; apply Fin.ext
  match a with
  | ⟨0, _⟩ => show win1_3.index t (0 : Fin 2) * 20000 + 1 * r.val = t.val * 20000 + r.val; rw [e0]; omega
  | ⟨1, _⟩ => show win1_3.index t (1 : Fin 2) * 64 + 1 * q.val = q.val; rw [e1]; omega

/-- What point t writes back is block t of the dense step of the arrays the launch found. -/
theorem flushed_eq (c : Dev nD) (t : Fin cfg1.N) :
    (dat1 V c).flushed 3 t
      = ((cfg1.win 3).blk t).view.read (Elt Ideal) (Sage.dense true (V c main_v59) (V c main_v63) (V c main_v64)) := by
  show (cfg1.win 3).cut (grid1.coords t) ((dat1 V c).after 3 t) = _
  rw [after1_3]
  unfold out1_3
  rw [View.canon_unit_zero hz]
  simp only [View.ld_unit_zero (S := S20000x128) hz, View.ld_unit_zero (S := S128x64) hz, View.ld_unit_zero (S := S1x64) hz]
  funext j
  obtain ⟨r, q, rfl⟩ : ∃ (r : Fin 20000) (q : Fin 64), j = ix2 r q := ⟨j 0, j 1, eq_ix2 j⟩
  show k1_pay1 (F := Ideal) (iblk1 V c 0 t) (iblk1 V c 1 t) (iblk1 V c 2 t) (ix2 r q)
      = Sage.dense true (V c main_v59) (V c main_v63) (V c main_v64) (((cfg1.win 3).blk t).view.emb (ix2 r q))
  refine (pay_apply (iblk1 V c 0 t) (iblk1 V c 1 t) (iblk1 V c 2 t) r q).trans ?_
  rw [emb3 t r q, Sage.dense_apply, Sage.denseAt_true]
  unfold Sage.affineAt
  rw [read2 V c t q]
  refine congrArg (fun s => max (s + V c main_v64 (ix2 (0 : Fin 1) q)) (Ideal.ofBits .f32 0x00000000#32)) ?_
  exact Finset.sum_congr rfl fun k _ => by rw [read0 V c t r k, read1 V c t k q]

/-- An index of the output array is in point t's block exactly when each coordinate is in the block's range. -/
theorem mem_blk (t : Fin cfg1.N) (i : S100000x64.Idx) :
    i ∈ ((cfg1.win 3).blk t).view.set ↔ ∀ a : Fin 2, win1_3.index t a * S20000x64.size a ≤ (i a).val ∧ (i a).val < win1_3.index t a * S20000x64.size a + S20000x64.size a := by
  show i ∈ ((View.whole main_v65).slice (win1_3.rect t)).set ↔ _
  rw [View.set_slice_whole, Rect.mem_set_unit]
  exact Iff.rfl

/-- The blocks tile the output: row i is in the block of point i / 20000. -/
theorem cover (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have ht : (i 0).val / 20000 < cfg1.N := by rw [hN]; omega
  refine ⟨⟨(i 0).val / 20000, ht⟩, flush1_3 _, ?_⟩
  rw [mem_blk]
  obtain ⟨-, -, -, -, -, -, e0, e1⟩ := idx_facts ⟨(i 0).val / 20000, ht⟩
  intro a
  match a with
  | ⟨0, _⟩ =>
    show win1_3.index ⟨(i 0).val / 20000, ht⟩ (0 : Fin 2) * 20000 ≤ (i 0).val
      ∧ (i 0).val < win1_3.index ⟨(i 0).val / 20000, ht⟩ (0 : Fin 2) * 20000 + 20000
    rw [e0]
    show (i 0).val / 20000 * 20000 ≤ (i 0).val ∧ (i 0).val < (i 0).val / 20000 * 20000 + 20000
    omega
  | ⟨1, _⟩ =>
    show win1_3.index ⟨(i 0).val / 20000, ht⟩ (1 : Fin 2) * 64 ≤ (i 1).val
      ∧ (i 1).val < win1_3.index ⟨(i 0).val / 20000, ht⟩ (1 : Fin 2) * 64 + 64
    rw [e1]
    omega

/-- The output array after the launch is the dense step of the arrays the launch found. -/
theorem final (c : Dev nD) :
    (dat1 V c).arrAt 3 cfg1.N = Sage.dense true (V c main_v59) (V c main_v63) (V c main_v64) :=
  (dat1 V c).arrAt_eq_of_cover 3 _ (fun t _ => flushed_eq V c t) cover

end Cert.KernelIdeal.Region1

end
-- ==== Proof.Region2.lean ====
/-
  Launch 3 of the dense layer body: what its grid points leave in the output array.

  The launch has five grid points.  Point t is handed rows 20000·t … 20000·t + 19999 of the feature array (all 128
  columns), the whole 128-by-32 weight matrix and the whole one-row bias, and writes rows 20000·t … 20000·t + 19999 of
  the output (all 32 columns).  At an entry (r, q) of its block the body computes
  ( Σ_{j < 128} block[r, j] · w[j, q] ) + b[0, q]; since block[r, j] is the feature array at
  (20000·t + r, j), that is the dense step of the WHOLE arrays at (20000·t + r, q).  So every point writes back the
  corresponding block of one whole-array function, the five blocks tile the 100000 rows (row i belongs to point
  i / 20000), and the output array ends equal to that function of the arrays the launch found.
  The arrays are taken as the launch finds them (`V`), whatever wrote them.
-/
import proofs.«136993_j13142599925969_2_alg».proof.Proof.Gen.KernelIdeal.Frame
import proofs.«136993_j13142599925969_2_alg».proof.Proof.LibDenseRows
import proofs.«136993_j13142599925969_2_alg».proof.Proof.DenseArray

set_option maxRecDepth 16384

noncomputable section

namespace Cert.KernelIdeal.Region2

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value at an entry (r, q) of its block: row r of the feature block against column q of the weights,
    plus the bias at q. -/
theorem pay_apply (x0 : FVec Ideal S20000x128 .bf16) (x1 : FVec Ideal S128x32 .bf16) (x2 : FVec Ideal S1x32 .f32)
    (r : Fin 20000) (q : Fin 32) :
    k2_pay1 (F := Ideal) x0 x1 x2 (ix2 r q)
      = (∑ k : Fin 128, x0 (ix2 r k) * x1 (ix2 k q)) + x2 (ix2 (0 : Fin 1) q) := by
  unfold k2_pay1
  exact DenseRows.affine_apply dot_S20000x128_S128x32_S20000x32_1_0_0_1_n_n rfl none x0 x1 x2 _ _ _ _ r q

/-- Where each window's block sits at grid point t: the feature and output blocks at block row t, the weights and the
    bias always at their one block. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The grid has five points. -/
theorem hN : cfg2.N = 5 := rfl

/-- The feature block at point t, entry (r, k), is the feature array at (20000·t + r, k). -/
theorem read0 (c : Dev nD) (t : Fin cfg2.N) (r : Fin 20000) (k : Fin 128) :
    iblk2 V c 0 t (ix2 r k)
      = V c main_v84 (ix2 (⟨t.val * 20000 + r.val, by have := t.isLt; have := hN; have := r.isLt; omega⟩ : Fin 100000) k) := by
  unfold iblk2
  show V c main_v84 (((cfg2.win 0).blk t).view.emb (ix2 r k)) = _
  refine congrArg (V c main_v84) ?_
  obtain ⟨e0, e1, -⟩ := idx_facts t
  funext a; apply Fin.ext
  match a with
  | ⟨0, _⟩ => show win2_0.index t (0 : Fin 2) * 20000 + 1 * r.val = t.val * 20000 + r.val; rw [e0]; omega
  | ⟨1, _⟩ => show win2_0.index t (1 : Fin 2) * 128 + 1 * k.val = k.val; rw [e1]; omega

/-- The weight block at any point is the whole weight matrix. -/
theorem read1 (c : Dev nD) (t : Fin cfg2.N) (k : Fin 128) (q : Fin 32) :
    iblk2 V c 1 t (ix2 k q) = V c main_v88 (ix2 k q) := by
  unfold iblk2
  show V c main_v88 (((cfg2.win 1).blk t).view.emb (ix2 k q)) = _
  refine congrArg (V c main_v88) ?_
  obtain ⟨-, -, e0, e1, -⟩ := idx_facts t
  funext a; apply Fin.ext
  match a with
  | ⟨0, _⟩ => show win2_1.index t (0 : Fin 2) * 128 + 1 * k.val = k.val; rw [e0]; omega
  | ⟨1, _⟩ => show win2_1.index t (1 : Fin 2) * 32 + 1 * q.val = q.val; rw [e1]; omega

/-- The bias block at any point is the whole bias row. -/
theorem read2 (c : Dev nD) (t : Fin cfg2.N) (q : Fin 32) :
    iblk2 V c 2 t (ix2 (0 : Fin 1) q) = V c main_v89 (ix2 (0 : Fin 1) q) := by
  unfold iblk2
  show V c main_v89 (((cfg2.win 2).blk t).view.emb (ix2 (0 : Fin 1) q)) = _
  refine congrArg (V c main_v89) ?_
  obtain ⟨-, -, -, -, e0, e1, -⟩ := idx_facts t
  funext a; apply Fin.ext
  match a with
  | ⟨0, _⟩ => show win2_2.index t (0 : Fin 2) * 1 + 1 * 0 = 0; rw [e0]
  | ⟨1, _⟩ => show win2_2.index t (1 : Fin 2) * 32 + 1 * q.val = q.val; rw [e1]; omega

/-- Entry (r, q) of the output block at point t sits at (20000·t + r, q) of the output array. -/
theorem emb3 (t : Fin cfg2.N) (r : Fin 20000) (q : Fin 32) :
    ((cfg2.win 3).blk t).view.emb (ix2 r q)
      = ix2 (⟨t.val * 20000 + r.val, by have := t.isLt; have := hN; have := r.isLt; omega⟩ : Fin 100000) q := by
  obtain ⟨-, -, -, -, -, -, e0, e1⟩ := idx_facts t
  funext a; apply Fin.ext
  match a with
  | ⟨0, _⟩ => show win2_3.index t (0 : Fin 2) * 20000 + 1 * r.val = t.val * 20000 + r.val; rw [e0]; omega
  | ⟨1, _⟩ => show win2_3.index t (1 : Fin 2) * 32 + 1 * q.val = q.val; rw [e1]; omega

/-- What point t writes back is block t of the dense step of the arrays the launch found. -/
theorem flushed_eq (c : Dev nD) (t : Fin cfg2.N) :
    (dat2 V c).flushed 3 t
      = ((cfg2.win 3).blk t).view.read (Elt Ideal) (Sage.dense false (V c main_v84) (V c main_v88) (V c main_v89)) := by
  show (cfg2.win 3).cut (grid2.coords t) ((dat2 V c).after 3 t) = _
  rw [after2_3]
  unfold out2_3
  rw [View.canon_unit_zero hz]
  simp only [View.ld_unit_zero (S := S20000x128) hz, View.ld_unit_zero (S := S128x32) hz, View.ld_unit_zero (S := S1x32) hz]
  funext j
  obtain ⟨r, q, rfl⟩ : ∃ (r : Fin 20000) (q : Fin 32), j = ix2 r q := ⟨j 0, j 1, eq_ix2 j⟩
  show k2_pay1 (F := Ideal) (iblk2 V c 0 t) (iblk2 V c 1 t) (iblk2 V c 2 t) (ix2 r q)
      = Sage.dense false (V c main_v84) (V c main_v88) (V c main_v89) (((cfg2.win 3).blk t).view.emb (ix2 r q))
  refine (pay_apply (iblk2 V c 0 t) (iblk2 V c 1 t) (iblk2 V c 2 t) r q).trans ?_
  rw [emb3 t r q, Sage.dense_apply, Sage.denseAt_false]
  unfold Sage.affineAt
  rw [read2 V c t q]
  refine congrArg (fun s => s + V c main_v89 (ix2 (0 : Fin 1) q)) ?_
  exact Finset.sum_congr rfl fun k _ => by rw [read0 V c t r k, read1 V c t k q]

/-- An index of the output array is in point t's block exactly when each coordinate is in the block's range. -/
theorem mem_blk (t : Fin cfg2.N) (i : S100000x32.Idx) :
    i ∈ ((cfg2.win 3).blk t).view.set ↔ ∀ a : Fin 2, win2_3.index t a * S20000x32.size a ≤ (i a).val ∧ (i a).val < win2_3.index t a * S20000x32.size a + S20000x32.size a := by
  show i ∈ ((View.whole main_v90).slice (win2_3.rect t)).set ↔ _
  rw [View.set_slice_whole, Rect.mem_set_unit]
  exact Iff.rfl

/-- The blocks tile the output: row i is in the block of point i / 20000. -/
theorem cover (i : S100000x32.Idx) :
    ∃ t : Fin cfg2.N, (cfg2.win 3).flush t = true ∧ i ∈ ((cfg2.win 3).blk t).view.set := by
  have hi0 : (i 0).val < 100000 := (i 0).isLt
  have hi1 : (i 1).val < 32 := (i 1).isLt
  have ht : (i 0).val / 20000 < cfg2.N := by rw [hN]; omega
  refine ⟨⟨(i 0).val / 20000, ht⟩, flush2_3 _, ?_⟩
  rw [mem_blk]
  obtain ⟨-, -, -, -, -, -, e0, e1⟩ := idx_facts ⟨(i 0).val / 20000, ht⟩
  intro a
  match a with
  | ⟨0, _⟩ =>
    show win2_3.index ⟨(i 0).val / 20000, ht⟩ (0 : Fin 2) * 20000 ≤ (i 0).val
      ∧ (i 0).val < win2_3.index ⟨(i 0).val / 20000, ht⟩ (0 : Fin 2) * 20000 + 20000
    rw [e0]
    show (i 0).val / 20000 * 20000 ≤ (i 0).val ∧ (i 0).val < (i 0).val / 20000 * 20000 + 20000
    omega
  | ⟨1, _⟩ =>
    show win2_3.index ⟨(i 0).val / 20000, ht⟩ (1 : Fin 2) * 32 ≤ (i 1).val
      ∧ (i 1).val < win2_3.index ⟨(i 0).val / 20000, ht⟩ (1 : Fin 2) * 32 + 32
    rw [e1]
    omega

/-- The output array after the launch is the dense step of the arrays the launch found. -/
theorem final (c : Dev nD) :
    (dat2 V c).arrAt 3 cfg2.N = Sage.dense false (V c main_v84) (V c main_v88) (V c main_v89) :=
  (dat2 V c).arrAt_eq_of_cover 3 _ (fun t _ => flushed_eq V c t) cover

end Cert.KernelIdeal.Region2

end
-- ==== Proof.HostChain.lean ====
/-
  The host operations of the kernel program, named, and what each stretch of them hands to the launch that follows.

  Row 0 of the edge list holds the source node of every edge and row 1 its destination.  Negative entries are wrapped
  (an entry d below zero is replaced by d + 100000) before the rows are used as gather and scatter positions.  For node
  features h, `agg` is the array that collects, at every node, the sum of the feature rows of the sources of its
  incoming edges; `cnt` is the number of incoming edges of every node, clamped below at one; `feat` lays the mean
  agg / cnt beside h itself into 128 columns; `wcat` stacks the two weight matrices, each transposed, into 128 rows;
  `bias` views the bias vector as one row.  Gathering and scatter-adding are used as they stand: nothing here looks
  inside them.

  The first stretch computes the rows, the count column and the first launch's three arrays from the arguments.  The
  later stretches read the rows and the count column from the buffers the first stretch left (no launch and no later
  operation writes those), and the features from the previous launch's output array.
-/
import proofs.«136993_j13142599925969_2_alg».proof.Proof.Gen.KernelIdeal.Frame
import Idealize.ShloMosaic.PureOps.Ideal

set_option maxRecDepth 16384

noncomputable section

namespace Cert.KernelIdeal.Host

open Cert.KernelIdeal Cert.KernelIdeal.Gen
open Idealize.ShloMosaic Idealize.ShloMosaic.TcCoe Idealize.ShloMosaic.StableHlo
open Idealize.SL Idealize.SL.Sem

/-- Row 0 of the edge list: the sources. -/
def srcRow (e : IVec S2x1600000 32) : IVec S1600000 32 :=
  shapeCast S1600000 (extractStridedSlice S1x1600000 ![0, 0] e slices_S2x1600000_S1x1600000_0_0) shapeCasts_S1x1600000_S1600000

/-- Row 1 of the edge list: the destinations. -/
def dstRow (e : IVec S2x1600000 32) : IVec S1600000 32 :=
  shapeCast S1600000 (extractStridedSlice S1x1600000 ![1, 0] e slices_S2x1600000_S1x1600000_1_0) shapeCasts_S1x1600000_S1600000

/-- Negative positions wrapped: d below zero becomes d + 100000. -/
def wrap (d : IVec S1600000 32) : IVec S1600000 32 :=
  select (cmpi .slt d (broadcastInDim S1600000 ![] bcast_S_S1600000 (constantI S_ 32 0#32)))
    (addi d (broadcastInDim S1600000 ![] bcast_S_S1600000 (constantI S_ 32 100000#32))) d

/-- A row of positions as a column, the form gather and scatter take. -/
def col (d : IVec S1600000 32) : IVec S1600000x1 32 := broadcastInDim S1600000x1 ![0] bcast_S1600000_S1600000x1_0 d

/-- The sum, at every node, of the feature rows of the sources of its incoming edges. -/
def agg (s d : IVec S1600000 32) (h : FVec Ideal S100000x64 .f32) : FVec Ideal S100000x64 .f32 :=
  Host.scatterAdd scatter_S100000x64_S1600000x1_S1600000x64_1_0_0_1
    (broadcastInDim S100000x64 ![] bcast_S_S100000x64 (constant (F := Ideal) S_ .f32 0x00000000#32)) (col (wrap d))
    (Host.gather gather_S100000x64_S1600000x1_S1600000x64_1_0_n_n_0_1_164 h (col (wrap s)))

/-- The number of incoming edges of every node, clamped below at one. -/
def cnt (d : IVec S1600000 32) : FVec Ideal S100000 .f32 :=
  maximumf
    (Host.scatterAdd scatter_S100000_S1600000x1_S1600000_n_0_0_1
      (broadcastInDim S100000 ![] bcast_S_S100000 (constant (F := Ideal) S_ .f32 0x00000000#32)) (col (wrap d))
      (broadcastInDim S1600000 ![] bcast_S_S1600000 (constant (F := Ideal) S_ .f32 0x3F800000#32)))
    (broadcastInDim S100000 ![] bcast_S_S100000 (constant (F := Ideal) S_ .f32 0x3F800000#32))

/-- The clamped count as a column. -/
def cntCol (d : IVec S1600000 32) : FVec Ideal S100000x1 .f32 := shapeCast S100000x1 (cnt d) shapeCasts_S100000_S100000x1

/-- The mean of the neighbours beside the node's own features: 128 columns. -/
def feat (s d : IVec S1600000 32) (g : FVec Ideal S100000x1 .f32) (h : FVec Ideal S100000x64 .f32) : FVec Ideal S100000x128 .bf16 :=
  truncf .bf16
    (concatenate S100000x128 1
      [⟨S100000x64, Host.divf (agg s d h) (broadcastInDim S100000x64 ![0, 1] bcast_S100000x1_S100000x64_0_1 g)⟩, ⟨S100000x64, h⟩]
      concatenates_S100000x64_S100000x64_S100000x128_d1) bitsLt_bf16_f32

/-- The two weight matrices of a 64-wide layer, each transposed, one above the other. -/
def wcat64 (Wl Wr : FVec Ideal S64x64 .f32) : FVec Ideal S128x64 .bf16 :=
  truncf .bf16
    (concatenate S128x64 0
      [⟨S64x64, transpose S64x64 [1, 0] Wl transposes_S64x64_S64x64_1_0⟩, ⟨S64x64, transpose S64x64 [1, 0] Wr transposes_S64x64_S64x64_1_0⟩]
      concatenates_S64x64_S64x64_S128x64_d0) bitsLt_bf16_f32

/-- The two weight matrices of the 32-wide layer, each transposed, one above the other. -/
def wcat32 (Wl Wr : FVec Ideal S32x64 .f32) : FVec Ideal S128x32 .bf16 :=
  truncf .bf16
    (concatenate S128x32 0
      [⟨S64x32, transpose S64x32 [1, 0] Wl transposes_S32x64_S64x32_1_0⟩, ⟨S64x32, transpose S64x32 [1, 0] Wr transposes_S32x64_S64x32_1_0⟩]
      concatenates_S64x32_S64x32_S128x32_d0) bitsLt_bf16_f32

/-- A bias vector as one row. -/
def bias64 (b : FVec Ideal S64 .f32) : FVec Ideal S1x64 .f32 := shapeCast S1x64 b shapeCasts_S64_S1x64
def bias32 (b : FVec Ideal S32 .f32) : FVec Ideal S1x32 .f32 := shapeCast S1x32 b shapeCasts_S32_S1x32

end Cert.KernelIdeal.Host

end
-- ==== Proof.HostPieces.lean ====
/-
  The two ways the kernel program joins arrays, as functions of the pieces.

  `catF a b` lays two 64-column arrays side by side into 128 columns; `stackT64 a b` and `stackT32 a b` put two
  64-row matrices one above the other into 128 rows.  (A change of float format follows each; over the extended reals it
  changes nothing.)  The feature array of a layer is `catF` of the neighbour mean and the node features, and the weight
  matrix is the stacking of the two transposed weight matrices.
-/
import proofs.«136993_j13142599925969_2_alg».proof.Proof.HostChain

set_option maxRecDepth 16384

noncomputable section

namespace Cert.KernelIdeal.Host

open Cert.KernelIdeal Cert.KernelIdeal.Gen
open Idealize.ShloMosaic Idealize.ShloMosaic.TcCoe Idealize.ShloMosaic.StableHlo
open Idealize.SL Idealize.SL.Sem

/-- Two 64-column arrays side by side, then the change of format. -/
def catF (a b : FVec Ideal S100000x64 .f32) : FVec Ideal S100000x128 .bf16 :=
  truncf .bf16
    (concatenate S100000x128 1 [⟨S100000x64, a⟩, ⟨S100000x64, b⟩] concatenates_S100000x64_S100000x64_S100000x128_d1) bitsLt_bf16_f32

/-- Two 64-by-64 matrices one above the other, then the change of format. -/
def stackT64 (a b : FVec Ideal S64x64 .f32) : FVec Ideal S128x64 .bf16 :=
  truncf .bf16 (concatenate S128x64 0 [⟨S64x64, a⟩, ⟨S64x64, b⟩] concatenates_S64x64_S64x64_S128x64_d0) bitsLt_bf16_f32

/-- Two 64-by-32 matrices one above the other, then the change of format. -/
def stackT32 (a b : FVec Ideal S64x32 .f32) : FVec Ideal S128x32 .bf16 :=
  truncf .bf16 (concatenate S128x32 0 [⟨S64x32, a⟩, ⟨S64x32, b⟩] concatenates_S64x32_S64x32_S128x32_d0) bitsLt_bf16_f32

/-- The feature array is the neighbour mean beside the node features. -/
theorem feat_eq (s d : IVec S1600000 32) (g : FVec Ideal S100000x1 .f32) (h : FVec Ideal S100000x64 .f32) :
    feat s d g h = catF (Host.divf (agg s d h) (broadcastInDim S100000x64 ![0, 1] bcast_S100000x1_S100000x64_0_1 g)) h := rfl

/-- The weight matrix of a 64-wide layer is the stacking of the two transposed weight matrices. -/
theorem wcat64_eq (Wl Wr : FVec Ideal S64x64 .f32) :
    wcat64 Wl Wr = stackT64 (transpose S64x64 [1, 0] Wl transposes_S64x64_S64x64_1_0) (transpose S64x64 [1, 0] Wr transposes_S64x64_S64x64_1_0) := rfl

/-- The weight matrix of the 32-wide layer, likewise. -/
theorem wcat32_eq (Wl Wr : FVec Ideal S32x64 .f32) :
    wcat32 Wl Wr = stackT32 (transpose S64x32 [1, 0] Wl transposes_S32x64_S64x32_1_0) (transpose S64x32 [1, 0] Wr transposes_S32x64_S64x32_1_0) := rfl

end Cert.KernelIdeal.Host

end
-- ==== Proof.LibAfterSplit.lean ====
/-
  A line of host operations run from given buffer contents is a fold over the line; the fold over a line is the fold
  over any tail of it started from the fold over the matching head.
-/
import Idealize.ShloMosaic.Lib.StableHlo.Run

noncomputable section

namespace Cert.AfterSplit

open Idealize.ShloMosaic Idealize.ShloMosaic.StableHlo

variable {τ : Topo} {sig : RefSig} {Val : EltTy → Type}

theorem after_append (l₁ l₂ : List (HloOp τ sig Val)) (V : Valuation τ sig Val) :
    after (l₁ ++ l₂) V = after l₂ (after l₁ V) := by
  induction l₁ generalizing V with
  | nil => rfl
  | cons op l ih => exact ih _

theorem after_take_drop (l : List (HloOp τ sig Val)) (k : ℕ) (V : Valuation τ sig Val) :
    after l V = after (l.drop k) (after (l.take k) V) := by
  rw [← after_append, List.take_append_drop]

end Cert.AfterSplit

end
-- ==== Proof.HostStage0.lean ====
/-
  The first stretch of host operations: what it leaves for the first launch.

  From the arguments it computes the source and destination rows of the edge list, the clamped in-neighbour count as a
  column, the neighbour mean of the input features, and then the first launch's three arrays: the mean beside the
  features, the stacked transposed weights, the bias as a row.  The stretch is cut before each joining operation, so
  that the joined pieces are read as buffers the earlier operations left.
-/
import proofs.«136993_j13142599925969_2_alg».proof.Proof.HostPieces
import proofs.«136993_j13142599925969_2_alg».proof.Proof.LibAfterSplit

set_option maxRecDepth 16384

noncomputable section

namespace Cert.KernelIdeal.Host

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg)

theorem W0_arg0 (c : Dev nD) : W0 m ρ c (Proc.devRef .tc main_arg0) = m ((c : Thread nD τ).loc main_arg0) := rfl
theorem W0_arg1 (c : Dev nD) : W0 m ρ c (Proc.devRef .tc main_arg1) = m ((c : Thread nD τ).loc main_arg1) := rfl
theorem W0_arg3 (c : Dev nD) : W0 m ρ c (Proc.devRef .tc main_arg3) = m ((c : Thread nD τ).loc main_arg3) := rfl
theorem W0_arg4 (c : Dev nD) : W0 m ρ c (Proc.devRef .tc main_arg4) = m ((c : Thread nD τ).loc main_arg4) := rfl
theorem W0_arg5 (c : Dev nD) : W0 m ρ c (Proc.devRef .tc main_arg5) = m ((c : Thread nD τ).loc main_arg5) := rfl
theorem W0_arg6 (c : Dev nD) : W0 m ρ c (Proc.devRef .tc main_arg6) = m ((c : Thread nD τ).loc main_arg6) := rfl
theorem W0_arg7 (c : Dev nD) : W0 m ρ c (Proc.devRef .tc main_arg7) = m ((c : Thread nD τ).loc main_arg7) := rfl
theorem W0_arg8 (c : Dev nD) : W0 m ρ c (Proc.devRef .tc main_arg8) = m ((c : Thread nD τ).loc main_arg8) := rfl
theorem W0_arg9 (c : Dev nD) : W0 m ρ c (Proc.devRef .tc main_arg9) = m ((c : Thread nD τ).loc main_arg9) := rfl
theorem W0_arg10 (c : Dev nD) : W0 m ρ c (Proc.devRef .tc main_arg10) = m ((c : Thread nD τ).loc main_arg10) := rfl
theorem W0_arg11 (c : Dev nD) : W0 m ρ c (Proc.devRef .tc main_arg11) = m ((c : Thread nD τ).loc main_arg11) := rfl

/-- The source row. -/
theorem W1_v1 (c : Dev nD) : W1 m ρ c (Proc.devRef .tc main_v1) = srcRow (W0 m ρ c (Proc.devRef .tc main_arg1)) := by
  show StableHlo.after hostOps0 (W0 m ρ c) (Proc.devRef .tc main_v1) = _
  after_results_simp <;> rfl
/-- The destination row. -/
theorem W1_v3 (c : Dev nD) : W1 m ρ c (Proc.devRef .tc main_v3) = dstRow (W0 m ρ c (Proc.devRef .tc main_arg1)) := by
  show StableHlo.after hostOps0 (W0 m ρ c) (Proc.devRef .tc main_v3) = _
  after_results_simp <;> rfl
/-- The clamped in-neighbour count, as a column. -/
theorem W1_v15 (c : Dev nD) : W1 m ρ c (Proc.devRef .tc main_v15) = cntCol (dstRow (W0 m ρ c (Proc.devRef .tc main_arg1))) := by
  show StableHlo.after hostOps0 (W0 m ρ c) (Proc.devRef .tc main_v15) = _
  after_results_simp <;> rfl
/-- The neighbour mean of the input features. -/
theorem W1_v32 (c : Dev nD) : W1 m ρ c (Proc.devRef .tc main_v32) = Host.divf (agg (srcRow (W0 m ρ c (Proc.devRef .tc main_arg1))) (dstRow (W0 m ρ c (Proc.devRef .tc main_arg1))) (W0 m ρ c (Proc.devRef .tc main_arg0))) (broadcastInDim S100000x64 ![0, 1] bcast_S100000x1_S100000x64_0_1 (cntCol (dstRow (W0 m ρ c (Proc.devRef .tc main_arg1))))) := by
  show StableHlo.after hostOps0 (W0 m ρ c) (Proc.devRef .tc main_v32) = _
  after_results_simp <;> rfl
/-- The stretch does not write the input features. -/
theorem W1_arg0 (c : Dev nD) : W1 m ρ c (Proc.devRef .tc main_arg0) = (W0 m ρ c (Proc.devRef .tc main_arg0)) := by
  show StableHlo.after hostOps0 (W0 m ρ c) (Proc.devRef .tc main_arg0) = _
  after_results_simp <;> rfl
/-- The first launch's feature array: the mean beside the input features. -/
theorem W1_v34 (c : Dev nD) : W1 m ρ c (Proc.devRef .tc main_v34) = catF (W1 m ρ c (Proc.devRef .tc main_v32)) (W1 m ρ c (Proc.devRef .tc main_arg0)) := by
  show StableHlo.after hostOps0 (W0 m ρ c) (Proc.devRef .tc main_v34)
      = catF (StableHlo.after hostOps0 (W0 m ρ c) (Proc.devRef .tc main_v32))
          (StableHlo.after hostOps0 (W0 m ρ c) (Proc.devRef .tc main_arg0))
  rw [Cert.AfterSplit.after_take_drop hostOps0 43 (W0 m ρ c)]
  generalize StableHlo.after (List.take 43 hostOps0) (W0 m ρ c) = V'
  simp only [hostOps0, List.drop_succ_cons, List.drop_zero]
  after_results_simp
  rfl
/-- The first weight matrix, transposed. -/
theorem W1_v35 (c : Dev nD) : W1 m ρ c (Proc.devRef .tc main_v35) = transpose S64x64 [1, 0] (W0 m ρ c (Proc.devRef .tc main_arg3)) transposes_S64x64_S64x64_1_0 := by
  show StableHlo.after hostOps0 (W0 m ρ c) (Proc.devRef .tc main_v35) = _
  after_results_simp <;> rfl
/-- The second weight matrix, transposed. -/
theorem W1_v36 (c : Dev nD) : W1 m ρ c (Proc.devRef .tc main_v36) = transpose S64x64 [1, 0] (W0 m ρ c (Proc.devRef .tc main_arg4)) transposes_S64x64_S64x64_1_0 := by
  show StableHlo.after hostOps0 (W0 m ρ c) (Proc.devRef .tc main_v36) = _
  after_results_simp <;> rfl
/-- The first launch's weight matrix: the two transposes stacked. -/
theorem W1_v38 (c : Dev nD) : W1 m ρ c (Proc.devRef .tc main_v38) = stackT64 (W1 m ρ c (Proc.devRef .tc main_v35)) (W1 m ρ c (Proc.devRef .tc main_v36)) := by
  show StableHlo.after hostOps0 (W0 m ρ c) (Proc.devRef .tc main_v38)
      = stackT64 (StableHlo.after hostOps0 (W0 m ρ c) (Proc.devRef .tc main_v35))
          (StableHlo.after hostOps0 (W0 m ρ c) (Proc.devRef .tc main_v36))
  rw [Cert.AfterSplit.after_take_drop hostOps0 47 (W0 m ρ c)]
  generalize StableHlo.after (List.take 47 hostOps0) (W0 m ρ c) = V'
  simp only [hostOps0, List.drop_succ_cons, List.drop_zero]
  after_results_simp
  rfl
/-- The first launch's bias row. -/
theorem W1_v39 (c : Dev nD) : W1 m ρ c (Proc.devRef .tc main_v39) = bias64 (W0 m ρ c (Proc.devRef .tc main_arg5)) := by
  show StableHlo.after hostOps0 (W0 m ρ c) (Proc.devRef .tc main_v39) = _
  after_results_simp <;> rfl
/-- The stretch does not write this argument. -/
theorem W1_arg6 (c : Dev nD) : W1 m ρ c (Proc.devRef .tc main_arg6) = (W0 m ρ c (Proc.devRef .tc main_arg6)) := by
  show StableHlo.after hostOps0 (W0 m ρ c) (Proc.devRef .tc main_arg6) = _
  after_results_simp <;> rfl
/-- The stretch does not write this argument. -/
theorem W1_arg7 (c : Dev nD) : W1 m ρ c (Proc.devRef .tc main_arg7) = (W0 m ρ c (Proc.devRef .tc main_arg7)) := by
  show StableHlo.after hostOps0 (W0 m ρ c) (Proc.devRef .tc main_arg7) = _
  after_results_simp <;> rfl
/-- The stretch does not write this argument. -/
theorem W1_arg8 (c : Dev nD) : W1 m ρ c (Proc.devRef .tc main_arg8) = (W0 m ρ c (Proc.devRef .tc main_arg8)) := by
  show StableHlo.after hostOps0 (W0 m ρ c) (Proc.devRef .tc main_arg8) = _
  after_results_simp <;> rfl
/-- The stretch does not write this argument. -/
theorem W1_arg9 (c : Dev nD) : W1 m ρ c (Proc.devRef .tc main_arg9) = (W0 m ρ c (Proc.devRef .tc main_arg9)) := by
  show StableHlo.after hostOps0 (W0 m ρ c) (Proc.devRef .tc main_arg9) = _
  after_results_simp <;> rfl
/-- The stretch does not write this argument. -/
theorem W1_arg10 (c : Dev nD) : W1 m ρ c (Proc.devRef .tc main_arg10) = (W0 m ρ c (Proc.devRef .tc main_arg10)) := by
  show StableHlo.after hostOps0 (W0 m ρ c) (Proc.devRef .tc main_arg10) = _
  after_results_simp <;> rfl
/-- The stretch does not write this argument. -/
theorem W1_arg11 (c : Dev nD) : W1 m ρ c (Proc.devRef .tc main_arg11) = (W0 m ρ c (Proc.devRef .tc main_arg11)) := by
  show StableHlo.after hostOps0 (W0 m ρ c) (Proc.devRef .tc main_arg11) = _
  after_results_simp <;> rfl

end Cert.KernelIdeal.Host

end
-- ==== Proof.HostStage1.lean ====
/-
  The second stretch of host operations: what it leaves for the second launch, and the buffers that pass through.

  It reads the rows of the edge list and the count column from the buffers the first stretch left, and the features
  from the first launch's output array.
-/
import proofs.«136993_j13142599925969_2_alg».proof.Proof.HostPieces
import proofs.«136993_j13142599925969_2_alg».proof.Proof.LibAfterSplit

set_option maxRecDepth 16384

noncomputable section

namespace Cert.KernelIdeal.Host

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg)

/-! ## Buffers the first launch leaves alone -/

theorem W2_v1 (c : Dev nD) : W2 m ρ c (Proc.devRef .tc main_v1) = W1 m ρ c (Proc.devRef .tc main_v1) :=
  W2_of_ne m ρ c main_v1 (by decide)
theorem W2_v3 (c : Dev nD) : W2 m ρ c (Proc.devRef .tc main_v3) = W1 m ρ c (Proc.devRef .tc main_v3) :=
  W2_of_ne m ρ c main_v3 (by decide)
theorem W2_v15 (c : Dev nD) : W2 m ρ c (Proc.devRef .tc main_v15) = W1 m ρ c (Proc.devRef .tc main_v15) :=
  W2_of_ne m ρ c main_v15 (by decide)
theorem W2_arg6 (c : Dev nD) : W2 m ρ c (Proc.devRef .tc main_arg6) = W1 m ρ c (Proc.devRef .tc main_arg6) :=
  W2_of_ne m ρ c main_arg6 (by decide)
theorem W2_arg7 (c : Dev nD) : W2 m ρ c (Proc.devRef .tc main_arg7) = W1 m ρ c (Proc.devRef .tc main_arg7) :=
  W2_of_ne m ρ c main_arg7 (by decide)
theorem W2_arg8 (c : Dev nD) : W2 m ρ c (Proc.devRef .tc main_arg8) = W1 m ρ c (Proc.devRef .tc main_arg8) :=
  W2_of_ne m ρ c main_arg8 (by decide)
theorem W2_arg9 (c : Dev nD) : W2 m ρ c (Proc.devRef .tc main_arg9) = W1 m ρ c (Proc.devRef .tc main_arg9) :=
  W2_of_ne m ρ c main_arg9 (by decide)
theorem W2_arg10 (c : Dev nD) : W2 m ρ c (Proc.devRef .tc main_arg10) = W1 m ρ c (Proc.devRef .tc main_arg10) :=
  W2_of_ne m ρ c main_arg10 (by decide)
theorem W2_arg11 (c : Dev nD) : W2 m ρ c (Proc.devRef .tc main_arg11) = W1 m ρ c (Proc.devRef .tc main_arg11) :=
  W2_of_ne m ρ c main_arg11 (by decide)

/-! ## The stretch -/

/-- The neighbour mean of the first launch's output. -/
theorem W3_v57 (c : Dev nD) : W3 m ρ c (Proc.devRef .tc main_v57) = Host.divf (agg (W2 m ρ c (Proc.devRef .tc main_v1)) (W2 m ρ c (Proc.devRef .tc main_v3)) (W2 m ρ c (Proc.devRef .tc main_v40))) (broadcastInDim S100000x64 ![0, 1] bcast_S100000x1_S100000x64_0_1 (W2 m ρ c (Proc.devRef .tc main_v15))) := by
  show StableHlo.after hostOps1 (W2 m ρ c) (Proc.devRef .tc main_v57) = _
  after_results_simp <;> rfl
/-- The stretch does not write the first launch's output. -/
theorem W3_v40 (c : Dev nD) : W3 m ρ c (Proc.devRef .tc main_v40) = (W2 m ρ c (Proc.devRef .tc main_v40)) := by
  show StableHlo.after hostOps1 (W2 m ρ c) (Proc.devRef .tc main_v40) = _
  after_results_simp <;> rfl
/-- The second launch's feature array. -/
theorem W3_v59 (c : Dev nD) : W3 m ρ c (Proc.devRef .tc main_v59) = catF (W3 m ρ c (Proc.devRef .tc main_v57)) (W3 m ρ c (Proc.devRef .tc main_v40)) := by
  show StableHlo.after hostOps1 (W2 m ρ c) (Proc.devRef .tc main_v59)
      = catF (StableHlo.after hostOps1 (W2 m ρ c) (Proc.devRef .tc main_v57))
          (StableHlo.after hostOps1 (W2 m ρ c) (Proc.devRef .tc main_v40))
  rw [Cert.AfterSplit.after_take_drop hostOps1 22 (W2 m ρ c)]
  generalize StableHlo.after (List.take 22 hostOps1) (W2 m ρ c) = V'
  simp only [hostOps1, List.drop_succ_cons, List.drop_zero]
  after_results_simp
  rfl
/-- The first weight matrix of the second layer, transposed. -/
theorem W3_v60 (c : Dev nD) : W3 m ρ c (Proc.devRef .tc main_v60) = transpose S64x64 [1, 0] (W2 m ρ c (Proc.devRef .tc main_arg6)) transposes_S64x64_S64x64_1_0 := by
  show StableHlo.after hostOps1 (W2 m ρ c) (Proc.devRef .tc main_v60) = _
  after_results_simp <;> rfl
/-- The second weight matrix of the second layer, transposed. -/
theorem W3_v61 (c : Dev nD) : W3 m ρ c (Proc.devRef .tc main_v61) = transpose S64x64 [1, 0] (W2 m ρ c (Proc.devRef .tc main_arg7)) transposes_S64x64_S64x64_1_0 := by
  show StableHlo.after hostOps1 (W2 m ρ c) (Proc.devRef .tc main_v61) = _
  after_results_simp <;> rfl
/-- The second launch's weight matrix. -/
theorem W3_v63 (c : Dev nD) : W3 m ρ c (Proc.devRef .tc main_v63) = stackT64 (W3 m ρ c (Proc.devRef .tc main_v60)) (W3 m ρ c (Proc.devRef .tc main_v61)) := by
  show StableHlo.after hostOps1 (W2 m ρ c) (Proc.devRef .tc main_v63)
      = stackT64 (StableHlo.after hostOps1 (W2 m ρ c) (Proc.devRef .tc main_v60))
          (StableHlo.after hostOps1 (W2 m ρ c) (Proc.devRef .tc main_v61))
  rw [Cert.AfterSplit.after_take_drop hostOps1 26 (W2 m ρ c)]
  generalize StableHlo.after (List.take 26 hostOps1) (W2 m ρ c) = V'
  simp only [hostOps1, List.drop_succ_cons, List.drop_zero]
  after_results_simp
  rfl
/-- The second launch's bias row. -/
theorem W3_v64 (c : Dev nD) : W3 m ρ c (Proc.devRef .tc main_v64) = bias64 (W2 m ρ c (Proc.devRef .tc main_arg8)) := by
  show StableHlo.after hostOps1 (W2 m ρ c) (Proc.devRef .tc main_v64) = _
  after_results_simp <;> rfl
/-- The stretch does not write this buffer. -/
theorem W3_v1 (c : Dev nD) : W3 m ρ c (Proc.devRef .tc main_v1) = (W2 m ρ c (Proc.devRef .tc main_v1)) := by
  show StableHlo.after hostOps1 (W2 m ρ c) (Proc.devRef .tc main_v1) = _
  after_results_simp <;> rfl
/-- The stretch does not write this buffer. -/
theorem W3_v3 (c : Dev nD) : W3 m ρ c (Proc.devRef .tc main_v3) = (W2 m ρ c (Proc.devRef .tc main_v3)) := by
  show StableHlo.after hostOps1 (W2 m ρ c) (Proc.devRef .tc main_v3) = _
  after_results_simp <;> rfl
/-- The stretch does not write this buffer. -/
theorem W3_v15 (c : Dev nD) : W3 m ρ c (Proc.devRef .tc main_v15) = (W2 m ρ c (Proc.devRef .tc main_v15)) := by
  show StableHlo.after hostOps1 (W2 m ρ c) (Proc.devRef .tc main_v15) = _
  after_results_simp <;> rfl
/-- The stretch does not write this buffer. -/
theorem W3_arg9 (c : Dev nD) : W3 m ρ c (Proc.devRef .tc main_arg9) = (W2 m ρ c (Proc.devRef .tc main_arg9)) := by
  show StableHlo.after hostOps1 (W2 m ρ c) (Proc.devRef .tc main_arg9) = _
  after_results_simp <;> rfl
/-- The stretch does not write this buffer. -/
theorem W3_arg10 (c : Dev nD) : W3 m ρ c (Proc.devRef .tc main_arg10) = (W2 m ρ c (Proc.devRef .tc main_arg10)) := by
  show StableHlo.after hostOps1 (W2 m ρ c) (Proc.devRef .tc main_arg10) = _
  after_results_simp <;> rfl
/-- The stretch does not write this buffer. -/
theorem W3_arg11 (c : Dev nD) : W3 m ρ c (Proc.devRef .tc main_arg11) = (W2 m ρ c (Proc.devRef .tc main_arg11)) := by
  show StableHlo.after hostOps1 (W2 m ρ c) (Proc.devRef .tc main_arg11) = _
  after_results_simp <;> rfl
/-! ## Buffers the second launch leaves alone -/

theorem W4_v1 (c : Dev nD) : W4 m ρ c (Proc.devRef .tc main_v1) = W3 m ρ c (Proc.devRef .tc main_v1) :=
  W4_of_ne m ρ c main_v1 (by decide)
theorem W4_v3 (c : Dev nD) : W4 m ρ c (Proc.devRef .tc main_v3) = W3 m ρ c (Proc.devRef .tc main_v3) :=
  W4_of_ne m ρ c main_v3 (by decide)
theorem W4_v15 (c : Dev nD) : W4 m ρ c (Proc.devRef .tc main_v15) = W3 m ρ c (Proc.devRef .tc main_v15) :=
  W4_of_ne m ρ c main_v15 (by decide)
theorem W4_arg9 (c : Dev nD) : W4 m ρ c (Proc.devRef .tc main_arg9) = W3 m ρ c (Proc.devRef .tc main_arg9) :=
  W4_of_ne m ρ c main_arg9 (by decide)
theorem W4_arg10 (c : Dev nD) : W4 m ρ c (Proc.devRef .tc main_arg10) = W3 m ρ c (Proc.devRef .tc main_arg10) :=
  W4_of_ne m ρ c main_arg10 (by decide)
theorem W4_arg11 (c : Dev nD) : W4 m ρ c (Proc.devRef .tc main_arg11) = W3 m ρ c (Proc.devRef .tc main_arg11) :=
  W4_of_ne m ρ c main_arg11 (by decide)

end Cert.KernelIdeal.Host

end
-- ==== Proof.HostStage2.lean ====
/-
  The third stretch of host operations: what it leaves for the third launch.

  As the second stretch, with the second launch's output array as the features and the 32-wide layer's weights.
-/
import proofs.«136993_j13142599925969_2_alg».proof.Proof.HostPieces
import proofs.«136993_j13142599925969_2_alg».proof.Proof.LibAfterSplit

set_option maxRecDepth 16384

noncomputable section

namespace Cert.KernelIdeal.Host

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg)

/-- The neighbour mean of the second launch's output. -/
theorem W5_v82 (c : Dev nD) : W5 m ρ c (Proc.devRef .tc main_v82) = Host.divf (agg (W4 m ρ c (Proc.devRef .tc main_v1)) (W4 m ρ c (Proc.devRef .tc main_v3)) (W4 m ρ c (Proc.devRef .tc main_v65))) (broadcastInDim S100000x64 ![0, 1] bcast_S100000x1_S100000x64_0_1 (W4 m ρ c (Proc.devRef .tc main_v15))) := by
  show StableHlo.after hostOps2 (W4 m ρ c) (Proc.devRef .tc main_v82) = _
  after_results_simp <;> rfl
/-- The stretch does not write the second launch's output. -/
theorem W5_v65 (c : Dev nD) : W5 m ρ c (Proc.devRef .tc main_v65) = (W4 m ρ c (Proc.devRef .tc main_v65)) := by
  show StableHlo.after hostOps2 (W4 m ρ c) (Proc.devRef .tc main_v65) = _
  after_results_simp <;> rfl
/-- The third launch's feature array. -/
theorem W5_v84 (c : Dev nD) : W5 m ρ c (Proc.devRef .tc main_v84) = catF (W5 m ρ c (Proc.devRef .tc main_v82)) (W5 m ρ c (Proc.devRef .tc main_v65)) := by
  show StableHlo.after hostOps2 (W4 m ρ c) (Proc.devRef .tc main_v84)
      = catF (StableHlo.after hostOps2 (W4 m ρ c) (Proc.devRef .tc main_v82))
          (StableHlo.after hostOps2 (W4 m ρ c) (Proc.devRef .tc main_v65))
  rw [Cert.AfterSplit.after_take_drop hostOps2 22 (W4 m ρ c)]
  generalize StableHlo.after (List.take 22 hostOps2) (W4 m ρ c) = V'
  simp only [hostOps2, List.drop_succ_cons, List.drop_zero]
  after_results_simp
  rfl
/-- The first weight matrix of the third layer, transposed. -/
theorem W5_v85 (c : Dev nD) : W5 m ρ c (Proc.devRef .tc main_v85) = transpose S64x32 [1, 0] (W4 m ρ c (Proc.devRef .tc main_arg9)) transposes_S32x64_S64x32_1_0 := by
  show StableHlo.after hostOps2 (W4 m ρ c) (Proc.devRef .tc main_v85) = _
  after_results_simp <;> rfl
/-- The second weight matrix of the third layer, transposed. -/
theorem W5_v86 (c : Dev nD) : W5 m ρ c (Proc.devRef .tc main_v86) = transpose S64x32 [1, 0] (W4 m ρ c (Proc.devRef .tc main_arg10)) transposes_S32x64_S64x32_1_0 := by
  show StableHlo.after hostOps2 (W4 m ρ c) (Proc.devRef .tc main_v86) = _
  after_results_simp <;> rfl
/-- The third launch's weight matrix. -/
theorem W5_v88 (c : Dev nD) : W5 m ρ c (Proc.devRef .tc main_v88) = stackT32 (W5 m ρ c (Proc.devRef .tc main_v85)) (W5 m ρ c (Proc.devRef .tc main_v86)) := by
  show StableHlo.after hostOps2 (W4 m ρ c) (Proc.devRef .tc main_v88)
      = stackT32 (StableHlo.after hostOps2 (W4 m ρ c) (Proc.devRef .tc main_v85))
          (StableHlo.after hostOps2 (W4 m ρ c) (Proc.devRef .tc main_v86))
  rw [Cert.AfterSplit.after_take_drop hostOps2 26 (W4 m ρ c)]
  generalize StableHlo.after (List.take 26 hostOps2) (W4 m ρ c) = V'
  simp only [hostOps2, List.drop_succ_cons, List.drop_zero]
  after_results_simp
  rfl
/-- The third launch's bias row. -/
theorem W5_v89 (c : Dev nD) : W5 m ρ c (Proc.devRef .tc main_v89) = bias32 (W4 m ρ c (Proc.devRef .tc main_arg11)) := by
  show StableHlo.after hostOps2 (W4 m ρ c) (Proc.devRef .tc main_v89) = _
  after_results_simp <;> rfl

end Cert.KernelIdeal.Host

end
-- ==== Proof.Spec.lean ====
/-
  One layer of a mean-aggregating graph convolution, as a function of arrays, entry by entry.

  For a node p and an output feature q, with A the sum of the in-neighbours' feature rows, g the number of
  in-neighbours clamped below at one, h the node's own features, Wl and Wr the two weight matrices (stored
  [output, input]) and b the bias:

      pre[p, q]   = ( Σ_k (A[p, k] / g[p]) · Wl[q, k]  +  Σ_k h[p, k] · Wr[q, k] )  +  b[q]
      layer[p, q] = max(pre[p, q], 0)   on a clamped layer,   pre[p, q]   on the last one.

  A and g are arbitrary arrays here: how the neighbours are collected is not this file's business.  Everything is over
  the extended reals and no entry is assumed finite: the only laws used about this expression are that addition of
  extended reals is commutative and associative and that a sum over 64 + 64 positions is the sum of its two halves.
-/
import Idealize.ShloMosaic.PureOps.Ideal
import Idealize.ShloMosaic.Lib.ValueIdx

noncomputable section

namespace Cert.Sage

open Idealize.ShloMosaic Idealize.ShloMosaic.ValueIdx

variable {D : ℕ}

/-- The affine part of a layer at (p, q): the mean of the neighbours through Wl, the node itself through Wr, the bias. -/
def pre (A : FVec Ideal ⟨2, ![100000, 64]⟩ .f32) (g : FVec Ideal ⟨1, ![100000]⟩ .f32)
    (h : FVec Ideal ⟨2, ![100000, 64]⟩ .f32) (Wl Wr : FVec Ideal ⟨2, ![D, 64]⟩ .f32) (b : FVec Ideal ⟨1, ![D]⟩ .f32)
    (p : Fin 100000) (q : Fin D) : EReal :=
  ((∑ k : Fin 64, Ideal.div (A (ix2 p k)) (g (ix1 p)) * Wl (ix2 q k)) + ∑ k : Fin 64, h (ix2 p k) * Wr (ix2 q k))
    + b (ix1 q)

/-- A layer at (p, q): the affine part, clamped below at the float zero when `relu` is set. -/
def layerAt (relu : Bool) (A : FVec Ideal ⟨2, ![100000, 64]⟩ .f32) (g : FVec Ideal ⟨1, ![100000]⟩ .f32)
    (h : FVec Ideal ⟨2, ![100000, 64]⟩ .f32) (Wl Wr : FVec Ideal ⟨2, ![D, 64]⟩ .f32) (b : FVec Ideal ⟨1, ![D]⟩ .f32)
    (p : Fin 100000) (q : Fin D) : EReal :=
  if relu = true then max (pre A g h Wl Wr b p q) (Ideal.ofBits .f32 0x00000000#32) else pre A g h Wl Wr b p q

/-- A layer as a whole array. -/
def layer (relu : Bool) (A : FVec Ideal ⟨2, ![100000, 64]⟩ .f32) (g : FVec Ideal ⟨1, ![100000]⟩ .f32)
    (h : FVec Ideal ⟨2, ![100000, 64]⟩ .f32) (Wl Wr : FVec Ideal ⟨2, ![D, 64]⟩ .f32) (b : FVec Ideal ⟨1, ![D]⟩ .f32) :
    FVec Ideal ⟨2, ![100000, D]⟩ .f32 :=
  fun i => layerAt relu A g h Wl Wr b ⟨(i 0).val, (i 0).isLt⟩ ⟨(i 1).val, (i 1).isLt⟩

theorem layer_apply (relu : Bool) (A : FVec Ideal ⟨2, ![100000, 64]⟩ .f32) (g : FVec Ideal ⟨1, ![100000]⟩ .f32)
    (h : FVec Ideal ⟨2, ![100000, 64]⟩ .f32) (Wl Wr : FVec Ideal ⟨2, ![D, 64]⟩ .f32) (b : FVec Ideal ⟨1, ![D]⟩ .f32)
    (p : Fin 100000) (q : Fin D) :
    layer relu A g h Wl Wr b (ix2 p q) = layerAt relu A g h Wl Wr b p q := rfl

theorem layerAt_true (A : FVec Ideal ⟨2, ![100000, 64]⟩ .f32) (g : FVec Ideal ⟨1, ![100000]⟩ .f32)
    (h : FVec Ideal ⟨2, ![100000, 64]⟩ .f32) (Wl Wr : FVec Ideal ⟨2, ![D, 64]⟩ .f32) (b : FVec Ideal ⟨1, ![D]⟩ .f32)
    (p : Fin 100000) (q : Fin D) :
    layerAt true A g h Wl Wr b p q = max (pre A g h Wl Wr b p q) (Ideal.ofBits .f32 0x00000000#32) := if_pos rfl

theorem layerAt_false (A : FVec Ideal ⟨2, ![100000, 64]⟩ .f32) (g : FVec Ideal ⟨1, ![100000]⟩ .f32)
    (h : FVec Ideal ⟨2, ![100000, 64]⟩ .f32) (Wl Wr : FVec Ideal ⟨2, ![D, 64]⟩ .f32) (b : FVec Ideal ⟨1, ![D]⟩ .f32)
    (p : Fin 100000) (q : Fin D) :
    layerAt false A g h Wl Wr b p q = pre A g h Wl Wr b p q := if_neg (by decide)

/-- The order in which a program spells the three summands does not matter: mean part, bias, own part. -/
theorem pre_eq_bias_between (A : FVec Ideal ⟨2, ![100000, 64]⟩ .f32) (g : FVec Ideal ⟨1, ![100000]⟩ .f32)
    (h : FVec Ideal ⟨2, ![100000, 64]⟩ .f32) (Wl Wr : FVec Ideal ⟨2, ![D, 64]⟩ .f32) (b : FVec Ideal ⟨1, ![D]⟩ .f32)
    (p : Fin 100000) (q : Fin D) :
    ((∑ k : Fin 64, Ideal.div (A (ix2 p k)) (g (ix1 p)) * Wl (ix2 q k)) + b (ix1 q))
        + ∑ k : Fin 64, h (ix2 p k) * Wr (ix2 q k)
      = pre A g h Wl Wr b p q := by
  unfold pre
  exact add_right_comm _ _ _

end Cert.Sage

end
-- ==== Proof.LayerBridge.lean ====
/-
  The dense step on concatenated operands is the layer.

  Suppose a 128-column feature array holds, in its first 64 columns, the neighbour sums A divided by the clamped count g,
  and in its last 64 columns the node features h; a 128-row weight matrix holds the transposed Wl in its first 64 rows
  and the transposed Wr in its last 64; and the bias row is the bias vector b.  Then

      Σ_{j < 128} feat[p, j] · w[j, q]  =  Σ_{k < 64} (A[p, k] / g[p]) · Wl[q, k]  +  Σ_{k < 64} h[p, k] · Wr[q, k],

  a sum over 64 + 64 positions being the sum over the first 64 plus the sum over the last 64; adding b[q], and clamping
  or not, gives the layer of the specification entry by entry.  No entry is assumed finite.
-/
import proofs.«136993_j13142599925969_2_alg».proof.Proof.Spec
import proofs.«136993_j13142599925969_2_alg».proof.Proof.DenseArray

noncomputable section

namespace Cert.Sage

open Idealize.ShloMosaic Idealize.ShloMosaic.ValueIdx

variable {D : ℕ}

/-- The affine parts agree at every entry. -/
theorem affineAt_eq_pre (F : FVec Ideal ⟨2, ![100000, 128]⟩ .bf16) (W : FVec Ideal ⟨2, ![128, D]⟩ .bf16)
    (B : FVec Ideal ⟨2, ![1, D]⟩ .f32)
    (A : FVec Ideal ⟨2, ![100000, 64]⟩ .f32) (g : FVec Ideal ⟨1, ![100000]⟩ .f32) (h : FVec Ideal ⟨2, ![100000, 64]⟩ .f32)
    (Wl Wr : FVec Ideal ⟨2, ![D, 64]⟩ .f32) (b : FVec Ideal ⟨1, ![D]⟩ .f32)
    (hF1 : ∀ (p : Fin 100000) (k : Fin 64), F (ix2 p (Fin.castAdd 64 k)) = Ideal.div (A (ix2 p k)) (g (ix1 p)))
    (hF2 : ∀ (p : Fin 100000) (k : Fin 64), F (ix2 p (Fin.natAdd 64 k)) = h (ix2 p k))
    (hW1 : ∀ (k : Fin 64) (q : Fin D), W (ix2 (Fin.castAdd 64 k) q) = Wl (ix2 q k))
    (hW2 : ∀ (k : Fin 64) (q : Fin D), W (ix2 (Fin.natAdd 64 k) q) = Wr (ix2 q k))
    (hB : ∀ q : Fin D, B (ix2 (0 : Fin 1) q) = b (ix1 q))
    (p : Fin 100000) (q : Fin D) :
    affineAt F W B p q = pre A g h Wl Wr b p q := by
  unfold affineAt pre
  rw [hB q]
  refine congrArg (· + b (ix1 q)) ?_
  refine (Fin.sum_univ_add (fun j : Fin (64 + 64) => F (ix2 p j) * W (ix2 j q))).trans ?_
  refine congrArg₂ (· + ·) ?_ ?_
  · exact Finset.sum_congr rfl fun k _ => by rw [hF1 p k, hW1 k q]
  · exact Finset.sum_congr rfl fun k _ => by rw [hF2 p k, hW2 k q]

/-- The dense step of the concatenated operands is the layer, as whole arrays. -/
theorem dense_eq_layer (relu : Bool) (F : FVec Ideal ⟨2, ![100000, 128]⟩ .bf16) (W : FVec Ideal ⟨2, ![128, D]⟩ .bf16)
    (B : FVec Ideal ⟨2, ![1, D]⟩ .f32)
    (A : FVec Ideal ⟨2, ![100000, 64]⟩ .f32) (g : FVec Ideal ⟨1, ![100000]⟩ .f32) (h : FVec Ideal ⟨2, ![100000, 64]⟩ .f32)
    (Wl Wr : FVec Ideal ⟨2, ![D, 64]⟩ .f32) (b : FVec Ideal ⟨1, ![D]⟩ .f32)
    (hF1 : ∀ (p : Fin 100000) (k : Fin 64), F (ix2 p (Fin.castAdd 64 k)) = Ideal.div (A (ix2 p k)) (g (ix1 p)))
    (hF2 : ∀ (p : Fin 100000) (k : Fin 64), F (ix2 p (Fin.natAdd 64 k)) = h (ix2 p k))
    (hW1 : ∀ (k : Fin 64) (q : Fin D), W (ix2 (Fin.castAdd 64 k) q) = Wl (ix2 q k))
    (hW2 : ∀ (k : Fin 64) (q : Fin D), W (ix2 (Fin.natAdd 64 k) q) = Wr (ix2 q k))
    (hB : ∀ q : Fin D, B (ix2 (0 : Fin 1) q) = b (ix1 q)) :
    dense relu F W B = layer relu A g h Wl Wr b := by
  funext i
  obtain ⟨p, q, rfl⟩ : ∃ (p : Fin 100000) (q : Fin D), i = ix2 p q := ⟨i 0, i 1, eq_ix2 i⟩
  rw [dense_apply, layer_apply]
  have e := affineAt_eq_pre F W B A g h Wl Wr b hF1 hF2 hW1 hW2 hB p q
  cases relu
  · rw [denseAt_false, layerAt_false, e]
  · rw [denseAt_true, layerAt_true, e]

end Cert.Sage

end
-- ==== Proof.LibConcatCols.lean ====
/-
  A reusable lemma: two matrices with the same number of rows laid side by side, read at an entry.

  The concatenation along axis 1 of an [M, a] array and an [M, b] array into an [M, c] array (c = a + b), at (p, j):
  the left piece at (p, j) when j is below a, the right piece at (p, j - a) otherwise. Generic in M, a, b, c and in the
  element type; the column of the piece is passed with its defining equation, so a use site picks its own spelling.
-/
import Idealize.ShloMosaic.Lib.Pipeline.Value
import Idealize.ShloMosaic.Lib.ValueIdx

noncomputable section

namespace Cert.ConcatCols

open Idealize.ShloMosaic Idealize.ShloMosaic.ValueIdx

variable {α : Type} {M a b c : ℕ}

/-- A column in the left piece: the left piece at the same row and the same column. -/
theorem left_apply (x₁ : (⟨2, ![M, a]⟩ : Shape).Idx → α) (x₂ : (⟨2, ![M, b]⟩ : Shape).Idx → α)
    (h : Shape.Concatenates [⟨2, ![M, a]⟩, ⟨2, ![M, b]⟩] ⟨2, ![M, c]⟩ 1)
    (p : Fin M) (j : Fin c) (k : Fin a) (hk : k.val = j.val) :
    concatenate ⟨2, ![M, c]⟩ 1 [⟨⟨2, ![M, a]⟩, x₁⟩, ⟨⟨2, ![M, b]⟩, x₂⟩] h (ix2 p j) = x₁ (ix2 p k) :=
  concatenate_pair_apply_left 1 x₁ x₂ h (ix2 p j) rfl (ix2 p k)
    (fun d => match d with | ⟨0, _⟩ => rfl | ⟨1, _⟩ => hk)

/-- A column past the left piece: the right piece at the same row, the column less the left piece's width. -/
theorem right_apply (x₁ : (⟨2, ![M, a]⟩ : Shape).Idx → α) (x₂ : (⟨2, ![M, b]⟩ : Shape).Idx → α)
    (h : Shape.Concatenates [⟨2, ![M, a]⟩, ⟨2, ![M, b]⟩] ⟨2, ![M, c]⟩ 1)
    (p : Fin M) (j : Fin c) (k : Fin b) (hk : k.val + a = j.val) :
    concatenate ⟨2, ![M, c]⟩ 1 [⟨⟨2, ![M, a]⟩, x₁⟩, ⟨⟨2, ![M, b]⟩, x₂⟩] h (ix2 p j) = x₂ (ix2 p k) :=
  concatenate_pair_apply_right 1 x₁ x₂ h (ix2 p j) rfl rfl (ix2 p k)
    (fun d hd => match d, hd with
      | ⟨0, _⟩, _ => rfl
      | ⟨1, _⟩, hd => absurd rfl hd) hk

/-- Both cases at once (`hc`: the widths add up): the entry comes from the left piece when its column is below the left
    piece's width, from the right piece otherwise. -/
theorem apply_dite (x₁ : (⟨2, ![M, a]⟩ : Shape).Idx → α) (x₂ : (⟨2, ![M, b]⟩ : Shape).Idx → α)
    (h : Shape.Concatenates [⟨2, ![M, a]⟩, ⟨2, ![M, b]⟩] ⟨2, ![M, c]⟩ 1) (hc : c = a + b)
    (p : Fin M) (j : Fin c) :
    concatenate ⟨2, ![M, c]⟩ 1 [⟨⟨2, ![M, a]⟩, x₁⟩, ⟨⟨2, ![M, b]⟩, x₂⟩] h (ix2 p j)
      = if hj : j.val < a then x₁ (ix2 p ⟨j.val, hj⟩)
        else x₂ (ix2 p ⟨j.val - a, by have := j.isLt; omega⟩) := by
  by_cases hj : j.val < a
  · rw [dif_pos hj]
    exact left_apply x₁ x₂ h p j ⟨j.val, hj⟩ rfl
  · rw [dif_neg hj]
    exact right_apply x₁ x₂ h p j ⟨j.val - a, by have := j.isLt; omega⟩ (by show j.val - a + a = j.val; omega)

end Cert.ConcatCols

end
-- ==== Proof.LibConcatRows.lean ====
/-
  A reusable lemma: two matrices with the same number of columns stacked one above the other, read at an entry.

  The concatenation along axis 0 of an [a, N] array and a [b, N] array into a [c, N] array (c = a + b), at (j, n):
  the upper piece at (j, n) when j is below a, the lower piece at (j - a, n) otherwise.  Generic in a, b, c, N and in
  the element type; the row of the piece is passed with its defining equation, so a use site picks its own spelling.
-/
import Idealize.ShloMosaic.Lib.Pipeline.Value
import Idealize.ShloMosaic.Lib.ValueIdx

noncomputable section

namespace Cert.ConcatRows

open Idealize.ShloMosaic Idealize.ShloMosaic.ValueIdx

variable {α : Type} {a b c N : ℕ}

/-- A row in the upper piece: the upper piece at the same row and the same column. -/
theorem upper_apply (x₁ : (⟨2, ![a, N]⟩ : Shape).Idx → α) (x₂ : (⟨2, ![b, N]⟩ : Shape).Idx → α)
    (h : Shape.Concatenates [⟨2, ![a, N]⟩, ⟨2, ![b, N]⟩] ⟨2, ![c, N]⟩ 0)
    (j : Fin c) (n : Fin N) (k : Fin a) (hk : k.val = j.val) :
    concatenate ⟨2, ![c, N]⟩ 0 [⟨⟨2, ![a, N]⟩, x₁⟩, ⟨⟨2, ![b, N]⟩, x₂⟩] h (ix2 j n) = x₁ (ix2 k n) :=
  concatenate_pair_apply_left 0 x₁ x₂ h (ix2 j n) rfl (ix2 k n)
    (fun d => match d with | ⟨0, _⟩ => hk | ⟨1, _⟩ => rfl)

/-- A row past the upper piece: the lower piece at the row less the upper piece's height, the same column. -/
theorem lower_apply (x₁ : (⟨2, ![a, N]⟩ : Shape).Idx → α) (x₂ : (⟨2, ![b, N]⟩ : Shape).Idx → α)
    (h : Shape.Concatenates [⟨2, ![a, N]⟩, ⟨2, ![b, N]⟩] ⟨2, ![c, N]⟩ 0)
    (j : Fin c) (n : Fin N) (k : Fin b) (hk : k.val + a = j.val) :
    concatenate ⟨2, ![c, N]⟩ 0 [⟨⟨2, ![a, N]⟩, x₁⟩, ⟨⟨2, ![b, N]⟩, x₂⟩] h (ix2 j n) = x₂ (ix2 k n) :=
  concatenate_pair_apply_right 0 x₁ x₂ h (ix2 j n) rfl rfl (ix2 k n)
    (fun d hd => match d, hd with
      | ⟨0, _⟩, hd => absurd rfl hd
      | ⟨1, _⟩, _ => rfl) hk

end Cert.ConcatRows

end
-- ==== Proof.LibHostBroadcasts.lean ====
/-
  Reusable lemmas: how a host program spreads a scalar, a vector or a column over a larger array, read at an entry.

  jnp lowers broadcasting to `broadcast_in_dim` with an explicit map from the operand's axes to the result's:
    a scalar [] to any shape (no axes mapped):      every entry is the scalar;
    a vector [T] to a column [T, 1] (dims [0]):     entry (e, u) is the vector's entry e;
    a column [T, 1] to a matrix [T, C] (dims [0,1]): entry (e, c) is the column's entry (e, 0).
  Generic in the extents and in the element type.
-/
import Idealize.ShloMosaic.Lib.Pipeline.Value
import Idealize.ShloMosaic.Lib.ValueIdx

noncomputable section

namespace Cert.HostBroadcasts

open Idealize.ShloMosaic Idealize.ShloMosaic.ValueIdx

variable {α : Type}

/-- A scalar spread over any shape reads the scalar everywhere. -/
theorem scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun a => a.elim0

/-- A vector viewed as a column reads, at (e, u), the vector's entry e. -/
theorem col_apply {T : ℕ} (v : (⟨1, ![T]⟩ : Shape).Idx → α)
    (h : (⟨1, ![T]⟩ : Shape).BroadcastsInDim ⟨2, ![T, 1]⟩ ![0]) (e : Fin T) (u : Fin 1) :
    broadcastInDim ⟨2, ![T, 1]⟩ ![0] h v (ix2 e u) = v (ix1 e) := by
  refine broadcastInDim_apply ![0] h v (ix2 e u) (ix1 e) fun ax => ?_
  match ax with
  | ⟨0, _⟩ =>
    show e.val = if T = 1 then 0 else e.val
    split
    · have := e.isLt; omega
    · rfl

/-- A column repeated along the rows' entries reads, at (e, c), the column's entry (e, 0). -/
theorem col_rows_apply {T C : ℕ} (v : (⟨2, ![T, 1]⟩ : Shape).Idx → α)
    (h : (⟨2, ![T, 1]⟩ : Shape).BroadcastsInDim ⟨2, ![T, C]⟩ ![0, 1]) (e : Fin T) (c : Fin C) :
    broadcastInDim ⟨2, ![T, C]⟩ ![0, 1] h v (ix2 e c) = v (ix2 e (0 : Fin 1)) := by
  refine broadcastInDim_apply ![0, 1] h v (ix2 e c) (ix2 e (0 : Fin 1)) fun ax => ?_
  match ax with
  | ⟨0, _⟩ =>
    show e.val = if T = 1 then 0 else e.val
    split
    · have := e.isLt; omega
    · rfl
  | ⟨1, _⟩ => rfl

end Cert.HostBroadcasts

end
-- ==== Proof.LibKeepdimsColumn.lean ====
/-
  A reusable lemma pair: a column kept as a trailing unit axis, read at an entry.

  A reduction over the last axis of an [a, b] array with the axis kept leaves a column: the [a] result is cast to
  [a, 1] and then broadcast back to [a, b'] to meet the array it came from. Read at an entry,

      cast [a] → [a, 1]        at (i, u) is the operand at i,
      broadcast [a, 1] → [a, b] at (p, c) is the operand at (p, 0):

  every entry of row p sees the row's one value. Generic in the extents and in the element type.
-/
import Idealize.ShloMosaic.Lib.Pipeline.Value
import Idealize.ShloMosaic.Lib.ValueIdx

noncomputable section

namespace Cert.KeepdimsColumn

open Idealize.ShloMosaic Idealize.ShloMosaic.ValueIdx

/-- An [a] array cast to [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KeepdimsColumn

end
-- ==== Proof.KernelLayers.lean ====
/-
  A layer of the kernel program is the layer of the specification.

  The program feeds the dense step with the mean of the neighbours laid beside the node's own features, the two
  transposed weight matrices stacked, and the bias as one row.  Read entry by entry: column k < 64 of the features is
  agg[p, k] divided by the clamped count of node p (the count column repeated along the row), column 64 + k is
  h[p, k]; row k < 64 of the weights is Wl[q, k] (the transpose read at (k, q)), row 64 + k is Wr[q, k]; the bias row at
  q is b[q].  These are the five facts under which the dense step is the specification's layer.
-/
import proofs.«136993_j13142599925969_2_alg».proof.Proof.HostChain
import proofs.«136993_j13142599925969_2_alg».proof.Proof.LayerBridge
import proofs.«136993_j13142599925969_2_alg».proof.Proof.LibConcatCols
import proofs.«136993_j13142599925969_2_alg».proof.Proof.LibConcatRows
import proofs.«136993_j13142599925969_2_alg».proof.Proof.LibHostBroadcasts
import proofs.«136993_j13142599925969_2_alg».proof.Proof.LibKeepdimsColumn
import Idealize.ShloMosaic.Lib.ValueLayout

set_option maxRecDepth 16384

noncomputable section

namespace Cert.KernelIdeal.Host

open Cert.KernelIdeal Cert.KernelIdeal.Gen
open Idealize.ShloMosaic Idealize.ShloMosaic.TcCoe Idealize.ShloMosaic.ValueIdx

/-- A format change followed by a side-by-side concatenation, read in the left half: the left piece. -/
theorem trunc_concat_left (a b : FVec Ideal S100000x64 .f32) (p : Fin 100000) (k : Fin 64) :
    (truncf .bf16 (concatenate S100000x128 1 [⟨S100000x64, a⟩, ⟨S100000x64, b⟩] concatenates_S100000x64_S100000x64_S100000x128_d1)
        bitsLt_bf16_f32 : FVec Ideal S100000x128 .bf16) (ix2 p (Fin.castAdd 64 k)) = a (ix2 p k) :=
  (truncf_apply _ bitsLt_bf16_f32 _).trans
    (ConcatCols.left_apply a b concatenates_S100000x64_S100000x64_S100000x128_d1 p (Fin.castAdd 64 k) k rfl)

/-- The same read in the right half: the right piece. -/
theorem trunc_concat_right (a b : FVec Ideal S100000x64 .f32) (p : Fin 100000) (k : Fin 64) :
    (truncf .bf16 (concatenate S100000x128 1 [⟨S100000x64, a⟩, ⟨S100000x64, b⟩] concatenates_S100000x64_S100000x64_S100000x128_d1)
        bitsLt_bf16_f32 : FVec Ideal S100000x128 .bf16) (ix2 p (Fin.natAdd 64 k)) = b (ix2 p k) :=
  (truncf_apply _ bitsLt_bf16_f32 _).trans
    (ConcatCols.right_apply a b concatenates_S100000x64_S100000x64_S100000x128_d1 p (Fin.natAdd 64 k) k (Nat.add_comm _ _))

/-- A quotient by a column repeated along the rows, at (p, k): the numerator at (p, k) over the column at p. -/
theorem div_col_apply (a : FVec Ideal S100000x64 .f32) (g : FVec Ideal S100000 .f32) (p : Fin 100000) (k : Fin 64) :
    Host.divf a (broadcastInDim S100000x64 ![0, 1] bcast_S100000x1_S100000x64_0_1
        (shapeCast S100000x1 g shapeCasts_S100000_S100000x1)) (ix2 p k) = Ideal.div (a (ix2 p k)) (g (ix1 p)) := by
  show Ideal.div (a (ix2 p k)) (broadcastInDim S100000x64 ![0, 1] bcast_S100000x1_S100000x64_0_1
        (shapeCast S100000x1 g shapeCasts_S100000_S100000x1) (ix2 p k)) = _
  rw [HostBroadcasts.col_rows_apply, KeepdimsColumn.shapeCast_a_a1_apply]

/-- Column k < 64 of the features: the neighbour sum at (p, k) over the clamped count of p. -/
theorem feat_left (s d : IVec S1600000 32) (h : FVec Ideal S100000x64 .f32) (p : Fin 100000) (k : Fin 64) :
    feat s d (cntCol d) h (ix2 p (Fin.castAdd 64 k)) = Ideal.div (agg s d h (ix2 p k)) (cnt d (ix1 p)) := by
  unfold feat cntCol
  refine (trunc_concat_left _ h p k).trans ?_
  exact div_col_apply (agg s d h) (cnt d) p k

/-- Column 64 + k of the features: the node's own feature k. -/
theorem feat_right (s d : IVec S1600000 32) (g : FVec Ideal S100000x1 .f32) (h : FVec Ideal S100000x64 .f32)
    (p : Fin 100000) (k : Fin 64) :
    feat s d g h (ix2 p (Fin.natAdd 64 k)) = h (ix2 p k) := by
  unfold feat
  exact trunc_concat_right _ h p k

/-- Row k < 64 of the stacked weights of a 64-wide layer: Wl[q, k]. -/
theorem wcat64_upper (Wl Wr : FVec Ideal S64x64 .f32) (k : Fin 64) (q : Fin 64) :
    wcat64 Wl Wr (ix2 (Fin.castAdd 64 k) q) = Wl (ix2 q k) := by
  unfold wcat64
  show concatenate S128x64 0
      [⟨S64x64, transpose S64x64 [1, 0] Wl transposes_S64x64_S64x64_1_0⟩, ⟨S64x64, transpose S64x64 [1, 0] Wr transposes_S64x64_S64x64_1_0⟩]
      concatenates_S64x64_S64x64_S128x64_d0 (ix2 (Fin.castAdd 64 k) q) = _
  refine (ConcatRows.upper_apply _ _ concatenates_S64x64_S64x64_S128x64_d0 (Fin.castAdd 64 k) q k rfl).trans ?_
  exact transpose_ix2_apply Wl transposes_S64x64_S64x64_1_0 k q

/-- Row 64 + k of the stacked weights of a 64-wide layer: Wr[q, k]. -/
theorem wcat64_lower (Wl Wr : FVec Ideal S64x64 .f32) (k : Fin 64) (q : Fin 64) :
    wcat64 Wl Wr (ix2 (Fin.natAdd 64 k) q) = Wr (ix2 q k) := by
  unfold wcat64
  show concatenate S128x64 0
      [⟨S64x64, transpose S64x64 [1, 0] Wl transposes_S64x64_S64x64_1_0⟩, ⟨S64x64, transpose S64x64 [1, 0] Wr transposes_S64x64_S64x64_1_0⟩]
      concatenates_S64x64_S64x64_S128x64_d0 (ix2 (Fin.natAdd 64 k) q) = _
  refine (ConcatRows.lower_apply _ _ concatenates_S64x64_S64x64_S128x64_d0 (Fin.natAdd 64 k) q k (Nat.add_comm _ _)).trans ?_
  exact transpose_ix2_apply Wr transposes_S64x64_S64x64_1_0 k q

/-- Row k < 64 of the stacked weights of the 32-wide layer: Wl[q, k]. -/
theorem wcat32_upper (Wl Wr : FVec Ideal S32x64 .f32) (k : Fin 64) (q : Fin 32) :
    wcat32 Wl Wr (ix2 (Fin.castAdd 64 k) q) = Wl (ix2 q k) := by
  unfold wcat32
  show concatenate S128x32 0
      [⟨S64x32, transpose S64x32 [1, 0] Wl transposes_S32x64_S64x32_1_0⟩, ⟨S64x32, transpose S64x32 [1, 0] Wr transposes_S32x64_S64x32_1_0⟩]
      concatenates_S64x32_S64x32_S128x32_d0 (ix2 (Fin.castAdd 64 k) q) = _
  refine (ConcatRows.upper_apply _ _ concatenates_S64x32_S64x32_S128x32_d0 (Fin.castAdd 64 k) q k rfl).trans ?_
  exact transpose_ix2_apply Wl transposes_S32x64_S64x32_1_0 k q

/-- Row 64 + k of the stacked weights of the 32-wide layer: Wr[q, k]. -/
theorem wcat32_lower (Wl Wr : FVec Ideal S32x64 .f32) (k : Fin 64) (q : Fin 32) :
    wcat32 Wl Wr (ix2 (Fin.natAdd 64 k) q) = Wr (ix2 q k) := by
  unfold wcat32
  show concatenate S128x32 0
      [⟨S64x32, transpose S64x32 [1, 0] Wl transposes_S32x64_S64x32_1_0⟩, ⟨S64x32, transpose S64x32 [1, 0] Wr transposes_S32x64_S64x32_1_0⟩]
      concatenates_S64x32_S64x32_S128x32_d0 (ix2 (Fin.natAdd 64 k) q) = _
  refine (ConcatRows.lower_apply _ _ concatenates_S64x32_S64x32_S128x32_d0 (Fin.natAdd 64 k) q k (Nat.add_comm _ _)).trans ?_
  exact transpose_ix2_apply Wr transposes_S32x64_S64x32_1_0 k q

/-- The bias row at q is the bias vector at q. -/
theorem bias64_apply (b : FVec Ideal S64 .f32) (q : Fin 64) : bias64 b (ix2 (0 : Fin 1) q) = b (ix1 q) := by
  unfold bias64
  exact shapeCast_a_1a_apply b shapeCasts_S64_S1x64 0 q

theorem bias32_apply (b : FVec Ideal S32 .f32) (q : Fin 32) : bias32 b (ix2 (0 : Fin 1) q) = b (ix1 q) := by
  unfold bias32
  exact shapeCast_a_1a_apply b shapeCasts_S32_S1x32 0 q

/-- A 64-wide layer of the program is the specification's layer of the neighbour sums, the clamped count, the features,
    the weights and the bias. -/
theorem layer64 (relu : Bool) (s d : IVec S1600000 32) (h : FVec Ideal S100000x64 .f32) (Wl Wr : FVec Ideal S64x64 .f32)
    (b : FVec Ideal S64 .f32) :
    Sage.dense relu (feat s d (cntCol d) h) (wcat64 Wl Wr) (bias64 b) = Sage.layer relu (agg s d h) (cnt d) h Wl Wr b :=
  Sage.dense_eq_layer relu _ _ _ _ _ _ _ _ _ (feat_left s d h) (feat_right s d (cntCol d) h) (wcat64_upper Wl Wr)
    (wcat64_lower Wl Wr) (bias64_apply b)

/-- The 32-wide layer of the program, likewise. -/
theorem layer32 (relu : Bool) (s d : IVec S1600000 32) (h : FVec Ideal S100000x64 .f32) (Wl Wr : FVec Ideal S32x64 .f32)
    (b : FVec Ideal S32 .f32) :
    Sage.dense relu (feat s d (cntCol d) h) (wcat32 Wl Wr) (bias32 b) = Sage.layer relu (agg s d h) (cnt d) h Wl Wr b :=
  Sage.dense_eq_layer relu _ _ _ _ _ _ _ _ _ (feat_left s d h) (feat_right s d (cntCol d) h) (wcat32_upper Wl Wr)
    (wcat32_lower Wl Wr) (bias32_apply b)

end Cert.KernelIdeal.Host

end
-- ==== Proof.KernelValue.lean ====
/-
  What the kernel program computes, as three layers of the specification.

  The first launch's output array is the dense step of the three arrays the first stretch of host operations left,
  which is the specification's layer of the input features; the second stretch builds the second launch's arrays from
  that output and from the rows and the count column the first stretch left, so the second launch's output is the layer
  of the first layer's result; the third likewise, 32 wide and without the clamp.  The neighbour sums and the clamped
  count are the program's own (`agg`, `cnt`): gathering and scatter-adding stay as they are.
-/
import proofs.«136993_j13142599925969_2_alg».proof.Proof.Region0
import proofs.«136993_j13142599925969_2_alg».proof.Proof.Region1
import proofs.«136993_j13142599925969_2_alg».proof.Proof.Region2
import proofs.«136993_j13142599925969_2_alg».proof.Proof.HostStage0
import proofs.«136993_j13142599925969_2_alg».proof.Proof.HostStage1
import proofs.«136993_j13142599925969_2_alg».proof.Proof.HostStage2
import proofs.«136993_j13142599925969_2_alg».proof.Proof.KernelLayers

set_option maxRecDepth 16384

noncomputable section

namespace Cert.KernelIdeal.Host

open Cert.KernelIdeal Cert.KernelIdeal.Gen
open Idealize.ShloMosaic Idealize.ShloMosaic.TcCoe Idealize.ShloMosaic.StableHlo
open Idealize.SL Idealize.SL.Sem

/-- The first layer of the kernel program, of the edge list, the input features and the first layer's parameters. -/
def K1 (e : IVec S2x1600000 32) (x0 : FVec Ideal S100000x64 .f32) (x3 : FVec Ideal S64x64 .f32) (x4 : FVec Ideal S64x64 .f32) (x5 : FVec Ideal S64 .f32) : FVec Ideal S100000x64 .f32 :=
  Sage.layer true (agg (srcRow e) (dstRow e) x0) (cnt (dstRow e)) x0 x3 x4 x5

/-- The second layer, of the first layer's result. -/
def K2 (e : IVec S2x1600000 32) (x0 : FVec Ideal S100000x64 .f32) (x3 : FVec Ideal S64x64 .f32) (x4 : FVec Ideal S64x64 .f32) (x5 : FVec Ideal S64 .f32) (x6 : FVec Ideal S64x64 .f32) (x7 : FVec Ideal S64x64 .f32) (x8 : FVec Ideal S64 .f32) : FVec Ideal S100000x64 .f32 :=
  Sage.layer true (agg (srcRow e) (dstRow e) (K1 e x0 x3 x4 x5)) (cnt (dstRow e)) (K1 e x0 x3 x4 x5) x6 x7 x8

/-- The third layer, of the second layer's result: 32 features, no clamp. -/
def K3 (e : IVec S2x1600000 32) (x0 : FVec Ideal S100000x64 .f32) (x3 : FVec Ideal S64x64 .f32) (x4 : FVec Ideal S64x64 .f32) (x5 : FVec Ideal S64 .f32) (x6 : FVec Ideal S64x64 .f32) (x7 : FVec Ideal S64x64 .f32) (x8 : FVec Ideal S64 .f32) (x9 : FVec Ideal S32x64 .f32) (x10 : FVec Ideal S32x64 .f32) (x11 : FVec Ideal S32 .f32) : FVec Ideal S100000x32 .f32 :=
  Sage.layer false (agg (srcRow e) (dstRow e) (K2 e x0 x3 x4 x5 x6 x7 x8)) (cnt (dstRow e)) (K2 e x0 x3 x4 x5 x6 x7 x8) x9 x10 x11

variable (m : (ℓ : Loc nD τ sig) → Buf (Elt Ideal) ℓ) (ρ : Dev nD → PrngReg)

/-- The first launch's output array is the first layer. -/
theorem out0 (c : Dev nD) : W2 m ρ c (Proc.devRef .tc main_v40) = K1 (m ((c : Thread nD τ).loc main_arg1)) (m ((c : Thread nD τ).loc main_arg0)) (m ((c : Thread nD τ).loc main_arg3)) (m ((c : Thread nD τ).loc main_arg4)) (m ((c : Thread nD τ).loc main_arg5)) := by
  refine (W2_arr m ρ c 3).trans ?_
  rw [Region0.final (V1 m ρ) c]
  show Sage.dense true (W1 m ρ c (Proc.devRef .tc main_v34)) (W1 m ρ c (Proc.devRef .tc main_v38)) (W1 m ρ c (Proc.devRef .tc main_v39)) = _
  rw [W1_v34 m ρ c, W1_v32 m ρ c, W1_arg0 m ρ c, W1_v38 m ρ c, W1_v35 m ρ c, W1_v36 m ρ c, W1_v39 m ρ c, ← feat_eq, ← wcat64_eq,
    W0_arg0 m ρ c, W0_arg1 m ρ c, W0_arg3 m ρ c, W0_arg4 m ρ c, W0_arg5 m ρ c]
  unfold K1
  exact layer64 true _ _ _ _ _ _

/-- The second launch's output array is the second layer. -/
theorem out1 (c : Dev nD) : W4 m ρ c (Proc.devRef .tc main_v65)
    = K2 (m ((c : Thread nD τ).loc main_arg1)) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 3).trans ?_
  rw [Region1.final (V3 m ρ) c]
  show Sage.dense true (W3 m ρ c (Proc.devRef .tc main_v59)) (W3 m ρ c (Proc.devRef .tc main_v63)) (W3 m ρ c (Proc.devRef .tc main_v64)) = _
  rw [W3_v59 m ρ c, W3_v57 m ρ c, W3_v40 m ρ c, W3_v63 m ρ c, W3_v60 m ρ c, W3_v61 m ρ c, W3_v64 m ρ c,
    W2_v1 m ρ c, W2_v3 m ρ c, W2_v15 m ρ c, W2_arg6 m ρ c, W2_arg7 m ρ c, W2_arg8 m ρ c,
    W1_v1 m ρ c, W1_v3 m ρ c, W1_v15 m ρ c, W1_arg6 m ρ c, W1_arg7 m ρ c, W1_arg8 m ρ c, out0 m ρ c, ← feat_eq, ← wcat64_eq,
    W0_arg1 m ρ c, W0_arg6 m ρ c, W0_arg7 m ρ c, W0_arg8 m ρ c]
  unfold K2
  exact layer64 true _ _ _ _ _ _

/-- The third launch's output array, the program's result, is the third layer. -/
theorem out2 (c : Dev nD) : W6 m ρ c (Proc.devRef .tc main_v90)
    = K3 (m ((c : Thread nD τ).loc main_arg1)) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W6_arr m ρ c 3).trans ?_
  rw [Region2.final (V5 m ρ) c]
  show Sage.dense false (W5 m ρ c (Proc.devRef .tc main_v84)) (W5 m ρ c (Proc.devRef .tc main_v88)) (W5 m ρ c (Proc.devRef .tc main_v89)) = _
  rw [W5_v84 m ρ c, W5_v82 m ρ c, W5_v65 m ρ c, W5_v88 m ρ c, W5_v85 m ρ c, W5_v86 m ρ c, W5_v89 m ρ c,
    W4_v1 m ρ c, W4_v3 m ρ c, W4_v15 m ρ c, W4_arg9 m ρ c, W4_arg10 m ρ c, W4_arg11 m ρ c,
    W3_v1 m ρ c, W3_v3 m ρ c, W3_v15 m ρ c, W3_arg9 m ρ c, W3_arg10 m ρ c, W3_arg11 m ρ c,
    W2_v1 m ρ c, W2_v3 m ρ c, W2_v15 m ρ c, W2_arg9 m ρ c, W2_arg10 m ρ c, W2_arg11 m ρ c,
    W1_v1 m ρ c, W1_v3 m ρ c, W1_v15 m ρ c, W1_arg9 m ρ c, W1_arg10 m ρ c, W1_arg11 m ρ c, out1 m ρ c, ← feat_eq, ← wcat32_eq,
    W0_arg1 m ρ c, W0_arg9 m ρ c, W0_arg10 m ρ c, W0_arg11 m ρ c]
  unfold K3
  exact layer32 false _ _ _ _ _ _

end Cert.KernelIdeal.Host

end
-- ==== Proof.RefLayers.lean ====
/-
  The reference program's three layers, read against the specification of one layer.

  The reference computes, three times over, with h the current node features (the input features, then the first
  layer's result, then the second's):

      A = the sum, over the edges (s, d), of the row h[s, :] added into row d of a zero array      (gather, then scatter-add)
      g = max(1, the number of edges ending at each node)                                        (scatter-add of ones, then a clamp)
      result[p, q] = ( Σ_k (A[p, k] / g[p]) · Wl[q, k]  +  b[q] )  +  Σ_k h[p, k] · Wr[q, k],   clamped below at 0 on layers 1 and 2.

  The gather and the scatter-add are never read at an index here: `aggR` and `cntR` name them as whole arrays, exactly as the
  reference spells them, and each layer's result is shown equal to `Cert.Sage.layer` of those arrays.  The reference rebuilds
  the wrapped source column, the destination column and the clamped count in every layer; the three spellings are the same
  term, which the small equations below record.  The weights enter through a transpose followed by a contraction of the
  last axis with the first, so entry (k, q) of the transposed matrix is W[q, k]; the three summands are added in the order
  mean part, bias, own part, which is the order of `Cert.Sage.pre_eq_bias_between`.  Nothing is assumed finite.
-/
import proofs.«136993_j13142599925969_2_alg».proof.Proof.Gen.ReferenceIdeal.Read
import proofs.«136993_j13142599925969_2_alg».proof.Proof.Spec

noncomputable section

namespace Cert.Sage.Ref

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## The two opaque arrays -/

/-- The neighbour sum of the rows of `h`: the rows of `h` at the (wrapped) source nodes, added into a zero array at the
    destination nodes. -/
def aggR (x1 : (⟨S2x1600000, .i32⟩ : BufTy).Contents (Elt Ideal)) (h : (⟨S100000x64, .f32⟩ : BufTy).Contents (Elt Ideal)) :
    (⟨S100000x64, .f32⟩ : BufTy).Contents (Elt Ideal) :=
  Host.scatterAdd (F := Ideal) (φ := .f32) scatter_S100000x64_S1600000x1_S1600000x64_1_0_0_1 (val_main_v11 (F := Ideal))
    (val_main_v12 (F := Ideal) x1)
    (Host.gather gather_S100000x64_S1600000x1_S1600000x64_1_0_n_n_0_1_164 h (val_main_v9 (F := Ideal) x1))

/-- The number of edges ending at each node, clamped below at one: max(1, count). -/
def cntR (x1 : (⟨S2x1600000, .i32⟩ : BufTy).Contents (Elt Ideal)) : (⟨S100000, .f32⟩ : BufTy).Contents (Elt Ideal) :=
  val_main_v18 (F := Ideal) x1

/-- `aggR` written out: zeros, the destination column (row 1 of the edge array) as a column of indices, and the gathered
    rows at the source column (row 0), a negative entry wrapped by adding the number of nodes. -/
theorem aggR_eq (x1 : (⟨S2x1600000, .i32⟩ : BufTy).Contents (Elt Ideal)) (h : (⟨S100000x64, .f32⟩ : BufTy).Contents (Elt Ideal)) :
    aggR x1 h =
      Host.scatterAdd (F := Ideal) (φ := .f32) scatter_S100000x64_S1600000x1_S1600000x64_1_0_0_1
        (broadcastInDim S100000x64 ![] bcast_S_S100000x64 (constant (F := Ideal) S_ .f32 0x00000000#32))
        (broadcastInDim S1600000x1 ![0] bcast_S1600000_S1600000x1_0
          (shapeCast S1600000 (extractStridedSlice S1x1600000 ![1, 0] x1 slices_S2x1600000_S1x1600000_1_0)
          shapeCasts_S1x1600000_S1600000))
        (Host.gather gather_S100000x64_S1600000x1_S1600000x64_1_0_n_n_0_1_164 h
          (broadcastInDim S1600000x1 ![0] bcast_S1600000_S1600000x1_0
            (select
              (cmpi .slt (shapeCast S1600000 (extractStridedSlice S1x1600000 ![0, 0] x1 slices_S2x1600000_S1x1600000_0_0)
              shapeCasts_S1x1600000_S1600000)
                (broadcastInDim S1600000 ![] bcast_S_S1600000 (constantI S_ 32 0#32)))
              (addi (shapeCast S1600000 (extractStridedSlice S1x1600000 ![0, 0] x1 slices_S2x1600000_S1x1600000_0_0)
              shapeCasts_S1x1600000_S1600000)
                (broadcastInDim S1600000 ![] bcast_S_S1600000 (constantI S_ 32 100000#32)))
              (shapeCast S1600000 (extractStridedSlice S1x1600000 ![0, 0] x1 slices_S2x1600000_S1x1600000_0_0)
              shapeCasts_S1x1600000_S1600000)))) := by
  unfold aggR val_main_v11 val_main_cst val_main_v12 val_main_v3 val_main_v2 val_main_v9 val_main_v8 val_main_v5 val_main_v7
    val_main_v4 val_main_v6 val_main_c val_main_c_0 val_main_v1 val_main_v0
  rfl

/-- `cntR` written out: the maximum of a constant one and the scatter-add of ones into zeros at the destination column. -/
theorem cntR_eq (x1 : (⟨S2x1600000, .i32⟩ : BufTy).Contents (Elt Ideal)) :
    cntR x1 =
      maximumf (F := Ideal)
        (broadcastInDim S100000 ![] bcast_S_S100000 (id (constant (F := Ideal) S_ .f32 0x3F800000#32)))
        (Host.scatterAdd (F := Ideal) (φ := .f32) scatter_S100000_S1600000x1_S1600000_n_0_0_1
          (broadcastInDim S100000 ![] bcast_S_S100000 (constant (F := Ideal) S_ .f32 0x00000000#32))
          (broadcastInDim S1600000x1 ![0] bcast_S1600000_S1600000x1_0
            (shapeCast S1600000 (extractStridedSlice S1x1600000 ![1, 0] x1 slices_S2x1600000_S1x1600000_1_0)
          shapeCasts_S1x1600000_S1600000))
          (broadcastInDim S1600000 ![] bcast_S_S1600000 (constant (F := Ideal) S_ .f32 0x3F800000#32))) := by
  unfold cntR val_main_v18 val_main_call0_v1 val_main_call0_v0 val_main_cst_3 val_main_v17 val_main_v15 val_main_cst_2
    val_main_v16 val_main_v3 val_main_v2 val_main_v14 val_main_cst_1
  rfl

/-! ## The reference's own names for these arrays, layer by layer

  Each equation below is between two spellings of one term: the definitions on both sides unfold to it. -/

theorem v13_eq_aggR (x0 : (⟨S100000x64, .f32⟩ : BufTy).Contents (Elt Ideal)) (x1 : (⟨S2x1600000, .i32⟩ : BufTy).Contents (Elt Ideal)) :
    val_main_v13 (F := Ideal) x0 x1 = aggR x1 x0 := rfl

theorem v18_eq_cntR (x1 : (⟨S2x1600000, .i32⟩ : BufTy).Contents (Elt Ideal)) : val_main_v18 (F := Ideal) x1 = cntR x1 := rfl

theorem v36_eq (x1 : (⟨S2x1600000, .i32⟩ : BufTy).Contents (Elt Ideal)) : val_main_v36 (F := Ideal) x1 = val_main_v9 (F := Ideal) x1 := rfl
theorem v63_eq (x1 : (⟨S2x1600000, .i32⟩ : BufTy).Contents (Elt Ideal)) : val_main_v63 (F := Ideal) x1 = val_main_v9 (F := Ideal) x1 := rfl
theorem v38_eq : val_main_v38 (F := Ideal) = val_main_v11 (F := Ideal) := rfl
theorem v65_eq : val_main_v65 (F := Ideal) = val_main_v11 (F := Ideal) := rfl
theorem v39_eq (x1 : (⟨S2x1600000, .i32⟩ : BufTy).Contents (Elt Ideal)) : val_main_v39 (F := Ideal) x1 = val_main_v12 (F := Ideal) x1 := rfl
theorem v66_eq (x1 : (⟨S2x1600000, .i32⟩ : BufTy).Contents (Elt Ideal)) : val_main_v66 (F := Ideal) x1 = val_main_v12 (F := Ideal) x1 := rfl

theorem v40_eq_aggR (x0 : (⟨S100000x64, .f32⟩ : BufTy).Contents (Elt Ideal)) (x1 : (⟨S2x1600000, .i32⟩ : BufTy).Contents (Elt Ideal))
    (x3 x4 : (⟨S64x64, .f32⟩ : BufTy).Contents (Elt Ideal)) (x5 : (⟨S64, .f32⟩ : BufTy).Contents (Elt Ideal)) :
    val_main_v40 (F := Ideal) x0 x1 x3 x4 x5 = aggR x1 (val_main_v30 (F := Ideal) x0 x1 x3 x4 x5) := by
  unfold val_main_v40 val_main_v37 aggR
  rw [v36_eq, v38_eq, v39_eq]

theorem v67_eq_aggR (x0 : (⟨S100000x64, .f32⟩ : BufTy).Contents (Elt Ideal)) (x1 : (⟨S2x1600000, .i32⟩ : BufTy).Contents (Elt Ideal))
    (x3 x4 : (⟨S64x64, .f32⟩ : BufTy).Contents (Elt Ideal)) (x5 : (⟨S64, .f32⟩ : BufTy).Contents (Elt Ideal))
    (x6 x7 : (⟨S64x64, .f32⟩ : BufTy).Contents (Elt Ideal)) (x8 : (⟨S64, .f32⟩ : BufTy).Contents (Elt Ideal)) :
    val_main_v67 (F := Ideal) x0 x1 x3 x4 x5 x6 x7 x8 = aggR x1 (val_main_v57 (F := Ideal) x0 x1 x3 x4 x5 x6 x7 x8) := by
  unfold val_main_v67 val_main_v64 aggR
  rw [v63_eq, v65_eq, v66_eq]

theorem one2_eq : val_main_call2_v1 (F := Ideal) = val_main_call0_v1 (F := Ideal) := rfl
theorem one4_eq : val_main_call4_v1 (F := Ideal) = val_main_call0_v1 (F := Ideal) := rfl
theorem v44_eq (x1 : (⟨S2x1600000, .i32⟩ : BufTy).Contents (Elt Ideal)) : val_main_v44 (F := Ideal) x1 = val_main_v17 (F := Ideal) x1 := rfl
theorem v71_eq (x1 : (⟨S2x1600000, .i32⟩ : BufTy).Contents (Elt Ideal)) : val_main_v71 (F := Ideal) x1 = val_main_v17 (F := Ideal) x1 := rfl

theorem v45_eq_cntR (x1 : (⟨S2x1600000, .i32⟩ : BufTy).Contents (Elt Ideal)) : val_main_v45 (F := Ideal) x1 = cntR x1 := by
  unfold val_main_v45 cntR val_main_v18
  rw [one2_eq, v44_eq]

theorem v72_eq_cntR (x1 : (⟨S2x1600000, .i32⟩ : BufTy).Contents (Elt Ideal)) : val_main_v72 (F := Ideal) x1 = cntR x1 := by
  unfold val_main_v72 cntR val_main_v18
  rw [one4_eq, v71_eq]

/-! ## Index arithmetic

  The generated reading lemmas read an operand at an index computed from the result's index; at a result index (p, q) and a
  contraction position k these are the indices (p, k), (k, q), the transposed (q, k), the row p and the column q. -/

theorem lidx23 (p : Fin 100000) (q : Fin 64) (k : Fin 64) : lidx_main_v23 (ix2 p q) k = ix2 p k :=
  funext fun a => Fin.ext (by match a with | ⟨0, _⟩ => rfl | ⟨1, _⟩ => rfl)
theorem ridx23 (p : Fin 100000) (q : Fin 64) (k : Fin 64) : ridx_main_v23 (ix2 p q) k = ix2 k q :=
  funext fun a => Fin.ext (by match a with | ⟨0, _⟩ => rfl | ⟨1, _⟩ => rfl)
theorem lidx28 (p : Fin 100000) (q : Fin 64) (k : Fin 64) : lidx_main_v28 (ix2 p q) k = ix2 p k :=
  funext fun a => Fin.ext (by match a with | ⟨0, _⟩ => rfl | ⟨1, _⟩ => rfl)
theorem ridx28 (p : Fin 100000) (q : Fin 64) (k : Fin 64) : ridx_main_v28 (ix2 p q) k = ix2 k q :=
  funext fun a => Fin.ext (by match a with | ⟨0, _⟩ => rfl | ⟨1, _⟩ => rfl)
theorem idx22 (k : Fin 64) (q : Fin 64) : idx_main_v22 (ix2 k q) = ix2 q k :=
  funext fun a => Fin.ext (by match a with | ⟨0, _⟩ => rfl | ⟨1, _⟩ => rfl)
theorem idx27 (k : Fin 64) (q : Fin 64) : idx_main_v27 (ix2 k q) = ix2 q k :=
  funext fun a => Fin.ext (by match a with | ⟨0, _⟩ => rfl | ⟨1, _⟩ => rfl)
theorem idx20_19 (p : Fin 100000) (k : Fin 64) : idx_main_v19 (idx_main_v20 (ix2 p k)) = ix1 p :=
  funext fun a => Fin.ext (by match a with | ⟨0, _⟩ => rfl)
theorem idx25_24 (p : Fin 100000) (q : Fin 64) : idx_main_v24 (idx_main_v25 (ix2 p q)) = ix1 q :=
  funext fun a => Fin.ext (by match a with | ⟨0, _⟩ => rfl)

theorem lidx50 (p : Fin 100000) (q : Fin 64) (k : Fin 64) : lidx_main_v50 (ix2 p q) k = ix2 p k :=
  funext fun a => Fin.ext (by match a with | ⟨0, _⟩ => rfl | ⟨1, _⟩ => rfl)
theorem ridx50 (p : Fin 100000) (q : Fin 64) (k : Fin 64) : ridx_main_v50 (ix2 p q) k = ix2 k q :=
  funext fun a => Fin.ext (by match a with | ⟨0, _⟩ => rfl | ⟨1, _⟩ => rfl)
theorem lidx55 (p : Fin 100000) (q : Fin 64) (k : Fin 64) : lidx_main_v55 (ix2 p q) k = ix2 p k :=
  funext fun a => Fin.ext (by match a with | ⟨0, _⟩ => rfl | ⟨1, _⟩ => rfl)
theorem ridx55 (p : Fin 100000) (q : Fin 64) (k : Fin 64) : ridx_main_v55 (ix2 p q) k = ix2 k q :=
  funext fun a => Fin.ext (by match a with | ⟨0, _⟩ => rfl | ⟨1, _⟩ => rfl)
theorem idx49 (k : Fin 64) (q : Fin 64) : idx_main_v49 (ix2 k q) = ix2 q k :=
  funext fun a => Fin.ext (by match a with | ⟨0, _⟩ => rfl | ⟨1, _⟩ => rfl)
theorem idx54 (k : Fin 64) (q : Fin 64) : idx_main_v54 (ix2 k q) = ix2 q k :=
  funext fun a => Fin.ext (by match a with | ⟨0, _⟩ => rfl | ⟨1, _⟩ => rfl)
theorem idx47_46 (p : Fin 100000) (k : Fin 64) : idx_main_v46 (idx_main_v47 (ix2 p k)) = ix1 p :=
  funext fun a => Fin.ext (by match a with | ⟨0, _⟩ => rfl)
theorem idx52_51 (p : Fin 100000) (q : Fin 64) : idx_main_v51 (idx_main_v52 (ix2 p q)) = ix1 q :=
  funext fun a => Fin.ext (by match a with | ⟨0, _⟩ => rfl)

theorem lidx77 (p : Fin 100000) (q : Fin 32) (k : Fin 64) : lidx_main_v77 (ix2 p q) k = ix2 p k :=
  funext fun a => Fin.ext (by match a with | ⟨0, _⟩ => rfl | ⟨1, _⟩ => rfl)
theorem ridx77 (p : Fin 100000) (q : Fin 32) (k : Fin 64) : ridx_main_v77 (ix2 p q) k = ix2 k q :=
  funext fun a => Fin.ext (by match a with | ⟨0, _⟩ => rfl | ⟨1, _⟩ => rfl)
theorem lidx82 (p : Fin 100000) (q : Fin 32) (k : Fin 64) : lidx_main_v82 (ix2 p q) k = ix2 p k :=
  funext fun a => Fin.ext (by match a with | ⟨0, _⟩ => rfl | ⟨1, _⟩ => rfl)
theorem ridx82 (p : Fin 100000) (q : Fin 32) (k : Fin 64) : ridx_main_v82 (ix2 p q) k = ix2 k q :=
  funext fun a => Fin.ext (by match a with | ⟨0, _⟩ => rfl | ⟨1, _⟩ => rfl)
theorem idx76 (k : Fin 64) (q : Fin 32) : idx_main_v76 (ix2 k q) = ix2 q k :=
  funext fun a => Fin.ext (by match a with | ⟨0, _⟩ => rfl | ⟨1, _⟩ => rfl)
theorem idx81 (k : Fin 64) (q : Fin 32) : idx_main_v81 (ix2 k q) = ix2 q k :=
  funext fun a => Fin.ext (by match a with | ⟨0, _⟩ => rfl | ⟨1, _⟩ => rfl)
theorem idx74_73 (p : Fin 100000) (k : Fin 64) : idx_main_v73 (idx_main_v74 (ix2 p k)) = ix1 p :=
  funext fun a => Fin.ext (by match a with | ⟨0, _⟩ => rfl)
theorem idx79_78 (p : Fin 100000) (q : Fin 32) : idx_main_v78 (idx_main_v79 (ix2 p q)) = ix1 q :=
  funext fun a => Fin.ext (by match a with | ⟨0, _⟩ => rfl)

/-! ## The three layers -/

/-- Layer 1: from the input features. -/
theorem layer1 (x0 : (⟨S100000x64, .f32⟩ : BufTy).Contents (Elt Ideal)) (x1 : (⟨S2x1600000, .i32⟩ : BufTy).Contents (Elt Ideal))
    (x3 x4 : (⟨S64x64, .f32⟩ : BufTy).Contents (Elt Ideal)) (x5 : (⟨S64, .f32⟩ : BufTy).Contents (Elt Ideal)) :
    val_main_v30 (F := Ideal) x0 x1 x3 x4 x5 = Cert.Sage.layer true (aggR x1 x0) (cntR x1) x0 x3 x4 x5 := by
  funext i
  obtain ⟨p, q, rfl⟩ : ∃ (p : Fin 100000) (q : Fin 64), i = ix2 p q := ⟨i 0, i 1, eq_ix2 i⟩
  rw [layer_apply, layerAt_true, ← pre_eq_bias_between]
  rw [val_main_v30_apply, val_main_v29_apply, val_main_v26_apply, val_main_v23_apply, val_main_v28_apply,
    val_main_v25_apply, val_main_v24_apply, val_main_call1_v0_apply, val_main_call1_cst_apply, idx25_24,
    Ideal.maximumf_def, Ideal.addf_def, Ideal.addf_def, Ideal.ofBits_def]
  have e1 : ∀ k : Fin 64, val_main_v21 (F := Ideal) x0 x1 (lidx_main_v23 (ix2 p q) k)
      * val_main_v22 (F := Ideal) x3 (ridx_main_v23 (ix2 p q) k)
      = Ideal.div (aggR x1 x0 (ix2 p k)) (cntR x1 (ix1 p)) * x3 (ix2 q k) := fun k => by
    rw [lidx23, ridx23, val_main_v21_apply, val_main_v20_apply, val_main_v19_apply, idx20_19, val_main_v22_apply, idx22,
      v13_eq_aggR, v18_eq_cntR, Ideal.hostDivf_def]
  have e2 : ∀ k : Fin 64, x0 (lidx_main_v28 (ix2 p q) k) * val_main_v27 (F := Ideal) x4 (ridx_main_v28 (ix2 p q) k)
      = x0 (ix2 p k) * x4 (ix2 q k) := fun k => by
    rw [lidx28, ridx28, val_main_v27_apply, idx27]
  rw [Finset.sum_congr rfl fun k _ => e1 k, Finset.sum_congr rfl fun k _ => e2 k]

/-- Layer 2: from the first layer's result. -/
theorem layer2 (x0 : (⟨S100000x64, .f32⟩ : BufTy).Contents (Elt Ideal)) (x1 : (⟨S2x1600000, .i32⟩ : BufTy).Contents (Elt Ideal))
    (x3 x4 : (⟨S64x64, .f32⟩ : BufTy).Contents (Elt Ideal)) (x5 : (⟨S64, .f32⟩ : BufTy).Contents (Elt Ideal))
    (x6 x7 : (⟨S64x64, .f32⟩ : BufTy).Contents (Elt Ideal)) (x8 : (⟨S64, .f32⟩ : BufTy).Contents (Elt Ideal)) :
    val_main_v57 (F := Ideal) x0 x1 x3 x4 x5 x6 x7 x8
      = Cert.Sage.layer true (aggR x1 (val_main_v30 (F := Ideal) x0 x1 x3 x4 x5)) (cntR x1)
          (val_main_v30 (F := Ideal) x0 x1 x3 x4 x5) x6 x7 x8 := by
  funext i
  obtain ⟨p, q, rfl⟩ : ∃ (p : Fin 100000) (q : Fin 64), i = ix2 p q := ⟨i 0, i 1, eq_ix2 i⟩
  rw [layer_apply, layerAt_true, ← pre_eq_bias_between]
  rw [val_main_v57_apply, val_main_v56_apply, val_main_v53_apply, val_main_v50_apply, val_main_v55_apply,
    val_main_v52_apply, val_main_v51_apply, val_main_call3_v0_apply, val_main_call3_cst_apply, idx52_51,
    Ideal.maximumf_def, Ideal.addf_def, Ideal.addf_def, Ideal.ofBits_def]
  have e1 : ∀ k : Fin 64, val_main_v48 (F := Ideal) x0 x1 x3 x4 x5 (lidx_main_v50 (ix2 p q) k)
      * val_main_v49 (F := Ideal) x6 (ridx_main_v50 (ix2 p q) k)
      = Ideal.div (aggR x1 (val_main_v30 (F := Ideal) x0 x1 x3 x4 x5) (ix2 p k)) (cntR x1 (ix1 p)) * x6 (ix2 q k) := fun k => by
    rw [lidx50, ridx50, val_main_v48_apply, val_main_v47_apply, val_main_v46_apply, idx47_46, val_main_v49_apply, idx49,
      v40_eq_aggR, v45_eq_cntR, Ideal.hostDivf_def]
  have e2 : ∀ k : Fin 64, (val_main_v30 (F := Ideal) x0 x1 x3 x4 x5) (lidx_main_v55 (ix2 p q) k)
      * val_main_v54 (F := Ideal) x7 (ridx_main_v55 (ix2 p q) k)
      = (val_main_v30 (F := Ideal) x0 x1 x3 x4 x5) (ix2 p k) * x7 (ix2 q k) := fun k => by
    rw [lidx55, ridx55, val_main_v54_apply, idx54]
  rw [Finset.sum_congr rfl fun k _ => e1 k, Finset.sum_congr rfl fun k _ => e2 k]

/-- Layer 3: from the second layer's result, 32 output features, no clamp. -/
theorem layer3 (x0 : (⟨S100000x64, .f32⟩ : BufTy).Contents (Elt Ideal)) (x1 : (⟨S2x1600000, .i32⟩ : BufTy).Contents (Elt Ideal))
    (x3 x4 : (⟨S64x64, .f32⟩ : BufTy).Contents (Elt Ideal)) (x5 : (⟨S64, .f32⟩ : BufTy).Contents (Elt Ideal))
    (x6 x7 : (⟨S64x64, .f32⟩ : BufTy).Contents (Elt Ideal)) (x8 : (⟨S64, .f32⟩ : BufTy).Contents (Elt Ideal))
    (x9 x10 : (⟨S32x64, .f32⟩ : BufTy).Contents (Elt Ideal)) (x11 : (⟨S32, .f32⟩ : BufTy).Contents (Elt Ideal)) :
    val_main_v83 (F := Ideal) x0 x1 x3 x4 x5 x6 x7 x8 x9 x10 x11
      = Cert.Sage.layer false (aggR x1 (val_main_v57 (F := Ideal) x0 x1 x3 x4 x5 x6 x7 x8)) (cntR x1)
          (val_main_v57 (F := Ideal) x0 x1 x3 x4 x5 x6 x7 x8) x9 x10 x11 := by
  funext i
  obtain ⟨p, q, rfl⟩ : ∃ (p : Fin 100000) (q : Fin 32), i = ix2 p q := ⟨i 0, i 1, eq_ix2 i⟩
  rw [layer_apply, layerAt_false, ← pre_eq_bias_between]
  rw [val_main_v83_apply, val_main_v80_apply, val_main_v77_apply, val_main_v82_apply,
    val_main_v79_apply, val_main_v78_apply, idx79_78, Ideal.addf_def, Ideal.addf_def]
  have e1 : ∀ k : Fin 64, val_main_v75 (F := Ideal) x0 x1 x3 x4 x5 x6 x7 x8 (lidx_main_v77 (ix2 p q) k)
      * val_main_v76 (F := Ideal) x9 (ridx_main_v77 (ix2 p q) k)
      = Ideal.div (aggR x1 (val_main_v57 (F := Ideal) x0 x1 x3 x4 x5 x6 x7 x8) (ix2 p k)) (cntR x1 (ix1 p)) * x9 (ix2 q k) := fun k => by
    rw [lidx77, ridx77, val_main_v75_apply, val_main_v74_apply, val_main_v73_apply, idx74_73, val_main_v76_apply, idx76,
      v67_eq_aggR, v72_eq_cntR, Ideal.hostDivf_def]
  have e2 : ∀ k : Fin 64, (val_main_v57 (F := Ideal) x0 x1 x3 x4 x5 x6 x7 x8) (lidx_main_v82 (ix2 p q) k)
      * val_main_v81 (F := Ideal) x10 (ridx_main_v82 (ix2 p q) k)
      = (val_main_v57 (F := Ideal) x0 x1 x3 x4 x5 x6 x7 x8) (ix2 p k) * x10 (ix2 q k) := fun k => by
    rw [lidx82, ridx82, val_main_v81_apply, idx81]
  rw [Finset.sum_congr rfl fun k _ => e1 k, Finset.sum_congr rfl fun k _ => e2 k]

end Cert.Sage.Ref

end
-- ==== Proof.SidesAgree.lean ====
/-
  The two programs collect neighbours in the same way once the destinations need no wrapping.

  Both programs gather the feature rows at the wrapped source positions and scatter-add them into a zero array; the
  reference scatters at the destination row as it stands, the kernel program at the wrapped destination row.  When
  wrapping leaves the destination row unchanged the two neighbour sums are one array, and so are the two in-neighbour
  counts before clamping.  The clamped counts are max(count, 1) in one program and max(1, count) in the other: equal,
  the maximum being commutative.
-/
import proofs.«136993_j13142599925969_2_alg».proof.Proof.HostChain
import proofs.«136993_j13142599925969_2_alg».proof.Proof.RefLayers
import Idealize.ShloMosaic.Lib.ValueIdx

set_option maxRecDepth 16384

noncomputable section

namespace Cert.Sage.Agree

open Idealize.ShloMosaic Idealize.ShloMosaic.ValueIdx

/-- The entrywise maximum of two arrays does not depend on their order. -/
theorem maximumf_comm {s : Shape} {φ : FTy} (a b : FVec Ideal s φ) : maximumf a b = maximumf b a :=
  funext fun i => by rw [maximumf_apply, maximumf_apply, max_comm]

variable (e : IVec ⟨2, ![2, 1600000]⟩ 32)

set_option maxHeartbeats 100000 in
/-- The neighbour sums of the two programs are one array when wrapping leaves the destinations unchanged. -/
theorem agg_eq (h : FVec Ideal ⟨2, ![100000, 64]⟩ .f32)
    (hw : Cert.KernelIdeal.Host.wrap (Cert.KernelIdeal.Host.dstRow e) = Cert.KernelIdeal.Host.dstRow e) :
    Cert.KernelIdeal.Host.agg (Cert.KernelIdeal.Host.srcRow e) (Cert.KernelIdeal.Host.dstRow e) h = Cert.Sage.Ref.aggR e h := by
  rw [Cert.Sage.Ref.aggR_eq]
  unfold Cert.KernelIdeal.Host.agg
  rw [hw]
  unfold Cert.KernelIdeal.Host.col Cert.KernelIdeal.Host.wrap Cert.KernelIdeal.Host.srcRow Cert.KernelIdeal.Host.dstRow
  rfl

set_option maxHeartbeats 100000 in
/-- The clamped in-neighbour counts of the two programs are one array when wrapping leaves the destinations unchanged. -/
theorem cnt_eq
    (hw : Cert.KernelIdeal.Host.wrap (Cert.KernelIdeal.Host.dstRow e) = Cert.KernelIdeal.Host.dstRow e) :
    Cert.KernelIdeal.Host.cnt (Cert.KernelIdeal.Host.dstRow e) = Cert.Sage.Ref.cntR e := by
  rw [Cert.Sage.Ref.cntR_eq]
  unfold Cert.KernelIdeal.Host.cnt
  rw [hw]
  unfold Cert.KernelIdeal.Host.col Cert.KernelIdeal.Host.dstRow
  refine (maximumf_comm _ _).trans ?_
  rfl

end Cert.Sage.Agree

end
-- ==== Proof.DstNonneg.lean ====
import proofs.«136993_j13142599925969_2_alg».proof.Defs
import Idealize.ShloMosaic.Lib.ReduceAll

/-!
  The destination row of the edge list under the precondition.

  The precondition's last conjunct says that every entry of row 1 of the edge list is a
  nonnegative signed 32-bit word.  A scatter at the "wrapped" index
  `select (d <s 0) (d + 100000) d` therefore scatters at `d` itself: a word that is
  `≥ 0` is not `< 0`, so the selection always takes its last branch.
-/

noncomputable section

namespace Cert.Sage.Pre

open Idealize.ShloMosaic

/-- A signed word that is `≥ 0` is left alone by the wrap `select (d <s 0) (d + 100000) d`:
    the comparison `d <s 0` is false, so the selection returns its last operand. -/
theorem wrap_eq_self (d : BitVec 32) (h : IntOp.cmpi .sge d 0#32 = 1#1) :
    Scalar.select (IntOp.cmpi .slt d 0#32) (IntOp.addi d 100000#32) d = d := by
  have hge : (0#32 : BitVec 32).toInt ≤ d.toInt := IntOp.cmpi_sge.1 h
  have hlt : ¬ IntOp.cmpi .slt d 0#32 = 1#1 := fun hc => by
    have := IntOp.cmpi_slt.1 hc
    omega
  unfold Scalar.select
  exact if_neg hlt

/-- The array form: if every entry of `d` is `≥ 0` (compared with the broadcast scalar `0`),
    the entrywise wrap of `d` is `d`.  Every operation involved is entrywise, and a broadcast
    scalar read at any index is the scalar. -/
theorem wrap_array_eq_self (d : IVec ⟨1, ![1600000]⟩ 32)
    (hb : (⟨0, ![]⟩ : Shape).BroadcastsInDim ⟨1, ![1600000]⟩ (![] : Fin 0 → Fin 1))
    (h : ∀ i, cmpi .sge d (broadcastInDim ⟨1, ![1600000]⟩ ![] hb (constantI ⟨0, ![]⟩ 32 0#32)) i = 1#1) :
    select (cmpi .slt d (broadcastInDim ⟨1, ![1600000]⟩ ![] hb (constantI ⟨0, ![]⟩ 32 0#32)))
        (addi d (broadcastInDim ⟨1, ![1600000]⟩ ![] hb (constantI ⟨0, ![]⟩ 32 100000#32))) d = d := by
  funext i
  exact wrap_eq_self (d i) (h i)

/-! ### Reading the precondition back

The precondition is a chain of `and`s of one-bit scalars; its value is
`and (all the float conjuncts) (all (row 1 of the edge list ≥ 0))`.  If an `and` of two one-bit
words is 1 then both are, so the last conjunct is 1; and an `and`-reduction over every axis
that comes out 1 had a 1 at every entry. -/

/-- The one index of a shape of rank 0. -/
private abbrev i0 : Cert.Pre_finite_inputs.S_.Idx := fun a => a.elim0

/-- A shape of rank 0 has one index. -/
local instance : Subsingleton Cert.Pre_finite_inputs.S_.Idx := ⟨fun a b => funext fun d => d.elim0⟩

section
variable [hP : Cert.Pre_finite_inputs.Facts] {F : FTy → Type} [FloatOps F]

open Cert.Pre_finite_inputs in
/-- The last part of the chain: its value is the `and` of the earlier conjuncts with the
    `and`-reduction of `row 1 ≥ 0`. -/
theorem part3_dst (a1 : IVec S2x1600000 32) (v48 : IVec S_ 1) (v49 v50 : FVec F S32 .f32)
    (h : fn_part3 (F := F) a1 v48 v49 v50 i0 = 1#1) :
    ∀ i, cmpi .sge (shapeCast S1600000 (extractStridedSlice S1x1600000 ![1, 0] a1 hP.slices_S2x1600000_S1x1600000_1_0) hP.shapeCasts_S1x1600000_S1600000)
        (broadcastInDim S1600000 ![] hP.bcast_S_S1600000 (constantI S_ 32 0#32)) i = 1#1 := by
  intro i
  unfold fn_part3 at h
  exact Host.reduce_andi_all _ _ _ _ i0 (IntOp.andi_eq_one.1 h).2 i

open Cert.Pre_finite_inputs in
/-- The middle part only adds float conjuncts and hands the edge list on unchanged. -/
theorem part2_dst (a1 : IVec S2x1600000 32) (a8 : FVec F S64 .f32) (a9 a10 : FVec F S32x64 .f32) (a11 : FVec F S32 .f32) (v33 : IVec S_ 1)
    (h : fn_part2 (F := F) a1 a8 a9 a10 a11 v33 i0 = 1#1) :
    ∀ i, cmpi .sge (shapeCast S1600000 (extractStridedSlice S1x1600000 ![1, 0] a1 hP.slices_S2x1600000_S1x1600000_1_0) hP.shapeCasts_S1x1600000_S1600000)
        (broadcastInDim S1600000 ![] hP.bcast_S_S1600000 (constantI S_ 32 0#32)) i = 1#1 := by
  unfold fn_part2 at h
  exact part3_dst a1 _ _ _ h

open Cert.Pre_finite_inputs in
/-- So does the first part. -/
theorem part1_dst (a1 : IVec S2x1600000 32) (a5 : FVec F S64 .f32) (a6 a7 : FVec F S64x64 .f32) (a8 : FVec F S64 .f32)
    (a9 a10 : FVec F S32x64 .f32) (a11 : FVec F S32 .f32) (v13 : IVec S_ 1) (v16 : IVec S64x64 1)
    (h : fn_part1 (F := F) a1 a5 a6 a7 a8 a9 a10 a11 v13 v16 i0 = 1#1) :
    ∀ i, cmpi .sge (shapeCast S1600000 (extractStridedSlice S1x1600000 ![1, 0] a1 hP.slices_S2x1600000_S1x1600000_1_0) hP.shapeCasts_S1x1600000_S1600000)
        (broadcastInDim S1600000 ![] hP.bcast_S_S1600000 (constantI S_ 32 0#32)) i = 1#1 := by
  unfold fn_part1 at h
  exact part2_dst a1 _ _ _ _ _ h

open Cert.Pre_finite_inputs in
/-- The whole precondition, at any argument arrays: if it is 1, every entry of row 1 of the
    edge list is `≥ 0`. -/
theorem fn_dst (a0 : FVec F S100000x64 .f32) (a1 : IVec S2x1600000 32) (a2 : FVec F S1600000 .f32) (a3 a4 : FVec F S64x64 .f32)
    (a5 : FVec F S64 .f32) (a6 a7 : FVec F S64x64 .f32) (a8 : FVec F S64 .f32) (a9 a10 : FVec F S32x64 .f32) (a11 : FVec F S32 .f32)
    (h : fn (F := F) a0 a1 a2 a3 a4 a5 a6 a7 a8 a9 a10 a11 i0 = 1#1) :
    ∀ i, cmpi .sge (shapeCast S1600000 (extractStridedSlice S1x1600000 ![1, 0] a1 hP.slices_S2x1600000_S1x1600000_1_0) hP.shapeCasts_S1x1600000_S1600000)
        (broadcastInDim S1600000 ![] hP.bcast_S_S1600000 (constantI S_ 32 0#32)) i = 1#1 := by
  unfold fn at h
  exact part1_dst a1 _ _ _ _ _ _ _ _ _ h

end

/-- Under the precondition, on every device, every entry of row 1 of the edge list (the
    destination row, reshaped to a vector) is a nonnegative signed word. -/
theorem dst_nonneg [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, cmpi .sge (shapeCast Cert.Pre_finite_inputs.S1600000 (extractStridedSlice Cert.Pre_finite_inputs.S1x1600000 ![1, 0] (m ((c.tc : Thread Cert.KernelIdeal.nD Cert.KernelIdeal.τ).loc Cert.KernelIdeal.main_arg1)) hP.slices_S2x1600000_S1x1600000_1_0) hP.shapeCasts_S1x1600000_S1600000)
        (broadcastInDim Cert.Pre_finite_inputs.S1600000 ![] hP.bcast_S_S1600000 (constantI Cert.Pre_finite_inputs.S_ 32 0#32)) i = 1#1 :=
  fn_dst _ _ _ _ _ _ _ _ _ _ _ _ (congrFun (hpre c) i0)

/-- Hence wrapping the destination row is the identity: under the precondition, on every device,
    `select (d <s 0) (d + 100000) d = d` for `d` the destination row. -/
theorem wrap_dst_eq_self [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    select (cmpi .slt (shapeCast Cert.Pre_finite_inputs.S1600000 (extractStridedSlice Cert.Pre_finite_inputs.S1x1600000 ![1, 0] (m ((c.tc : Thread Cert.KernelIdeal.nD Cert.KernelIdeal.τ).loc Cert.KernelIdeal.main_arg1)) hP.slices_S2x1600000_S1x1600000_1_0) hP.shapeCasts_S1x1600000_S1600000)
          (broadcastInDim ⟨1, ![1600000]⟩ ![] hP.bcast_S_S1600000 (constantI ⟨0, ![]⟩ 32 0#32)))
        (addi (shapeCast Cert.Pre_finite_inputs.S1600000 (extractStridedSlice Cert.Pre_finite_inputs.S1x1600000 ![1, 0] (m ((c.tc : Thread Cert.KernelIdeal.nD Cert.KernelIdeal.τ).loc Cert.KernelIdeal.main_arg1)) hP.slices_S2x1600000_S1x1600000_1_0) hP.shapeCasts_S1x1600000_S1600000)
          (broadcastInDim ⟨1, ![1600000]⟩ ![] hP.bcast_S_S1600000 (constantI ⟨0, ![]⟩ 32 100000#32)))
        (shapeCast Cert.Pre_finite_inputs.S1600000 (extractStridedSlice Cert.Pre_finite_inputs.S1x1600000 ![1, 0] (m ((c.tc : Thread Cert.KernelIdeal.nD Cert.KernelIdeal.τ).loc Cert.KernelIdeal.main_arg1)) hP.slices_S2x1600000_S1x1600000_1_0) hP.shapeCasts_S1x1600000_S1600000)
      = shapeCast Cert.Pre_finite_inputs.S1600000 (extractStridedSlice Cert.Pre_finite_inputs.S1x1600000 ![1, 0] (m ((c.tc : Thread Cert.KernelIdeal.nD Cert.KernelIdeal.τ).loc Cert.KernelIdeal.main_arg1)) hP.slices_S2x1600000_S1x1600000_1_0) hP.shapeCasts_S1x1600000_S1600000 :=
  wrap_array_eq_self _ hP.bcast_S_S1600000 (dst_nonneg m hpre c)

/-- The same equation with the slice, reshape and broadcast side conditions given by any proofs
    (a proposition has one proof, so this is the statement above). -/
theorem wrap_dst_eq_self' [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD)
    (hs : (⟨2, ![2, 1600000]⟩ : Shape).Slices ![1, 0] ⟨2, ![1, 1600000]⟩)
    (hc : (⟨2, ![1, 1600000]⟩ : Shape).ShapeCasts ⟨1, ![1600000]⟩)
    (hb : (⟨0, ![]⟩ : Shape).BroadcastsInDim ⟨1, ![1600000]⟩ (![] : Fin 0 → Fin 1)) :
    select (cmpi .slt (shapeCast ⟨1, ![1600000]⟩ (extractStridedSlice ⟨2, ![1, 1600000]⟩ ![1, 0] (m ((c.tc : Thread Cert.KernelIdeal.nD Cert.KernelIdeal.τ).loc Cert.KernelIdeal.main_arg1)) hs) hc)
          (broadcastInDim ⟨1, ![1600000]⟩ ![] hb (constantI ⟨0, ![]⟩ 32 0#32)))
        (addi (shapeCast ⟨1, ![1600000]⟩ (extractStridedSlice ⟨2, ![1, 1600000]⟩ ![1, 0] (m ((c.tc : Thread Cert.KernelIdeal.nD Cert.KernelIdeal.τ).loc Cert.KernelIdeal.main_arg1)) hs) hc)
          (broadcastInDim ⟨1, ![1600000]⟩ ![] hb (constantI ⟨0, ![]⟩ 32 100000#32)))
        (shapeCast ⟨1, ![1600000]⟩ (extractStridedSlice ⟨2, ![1, 1600000]⟩ ![1, 0] (m ((c.tc : Thread Cert.KernelIdeal.nD Cert.KernelIdeal.τ).loc Cert.KernelIdeal.main_arg1)) hs) hc)
      = shapeCast ⟨1, ![1600000]⟩ (extractStridedSlice ⟨2, ![1, 1600000]⟩ ![1, 0] (m ((c.tc : Thread Cert.KernelIdeal.nD Cert.KernelIdeal.τ).loc Cert.KernelIdeal.main_arg1)) hs) hc :=
  wrap_dst_eq_self m hpre c

end Cert.Sage.Pre
-- ==== Proof.Equiv.lean ====
/-
  Under the precondition the kernel program and the reference compute one function of the arguments.

  The precondition says every destination of the edge list is nonnegative, so wrapping the destination row changes
  nothing; then the two programs' neighbour sums agree and so do their clamped counts, at every layer, and both results
  are the specification's three layers applied in turn to the input features.
-/
import proofs.«136993_j13142599925969_2_alg».proof.Proof.KernelValue
import proofs.«136993_j13142599925969_2_alg».proof.Proof.SidesAgree
import proofs.«136993_j13142599925969_2_alg».proof.Proof.DstNonneg

set_option maxRecDepth 16384

noncomputable section

namespace Cert.Sage.Equiv

open Idealize.ShloMosaic Idealize.SL.Sem

/-- Under the precondition, wrapping the destination row of the edge list leaves it unchanged. -/
theorem wrap_dst [hP : Cert.Pre_finite_inputs.Facts]
    (m : (ℓ : Loc Cert.KernelIdeal.nD Cert.KernelIdeal.τ Cert.KernelIdeal.sig) → Buf (Elt Ideal) ℓ) (hpre : Cert.Pre_KernelIdeal m) (c : Dev Cert.KernelIdeal.nD) :
    Cert.KernelIdeal.Host.wrap (Cert.KernelIdeal.Host.dstRow (m ((c.tc : Thread Cert.KernelIdeal.nD Cert.KernelIdeal.τ).loc Cert.KernelIdeal.main_arg1)))
      = Cert.KernelIdeal.Host.dstRow (m ((c.tc : Thread Cert.KernelIdeal.nD Cert.KernelIdeal.τ).loc Cert.KernelIdeal.main_arg1)) := by
  unfold Cert.KernelIdeal.Host.wrap Cert.KernelIdeal.Host.dstRow
  exact Cert.Sage.Pre.wrap_dst_eq_self' m hpre c _ _ _

/-- When wrapping leaves the destination row unchanged, the kernel program's three layers are the reference's result. -/
theorem K3_eq_ref (e : IVec Cert.KernelIdeal.S2x1600000 32) (hw : Cert.KernelIdeal.Host.wrap (Cert.KernelIdeal.Host.dstRow e) = Cert.KernelIdeal.Host.dstRow e)
    (x0 : FVec Ideal Cert.KernelIdeal.S100000x64 .f32) (x3 x4 : FVec Ideal Cert.KernelIdeal.S64x64 .f32) (x5 : FVec Ideal Cert.KernelIdeal.S64 .f32)
    (x6 x7 : FVec Ideal Cert.KernelIdeal.S64x64 .f32) (x8 : FVec Ideal Cert.KernelIdeal.S64 .f32)
    (x9 x10 : FVec Ideal Cert.KernelIdeal.S32x64 .f32) (x11 : FVec Ideal Cert.KernelIdeal.S32 .f32) :
    Cert.KernelIdeal.Host.K3 e x0 x3 x4 x5 x6 x7 x8 x9 x10 x11
      = Cert.ReferenceIdeal.Read.val_main_v83 (F := Ideal) x0 e x3 x4 x5 x6 x7 x8 x9 x10 x11 := by
  rw [Cert.Sage.Ref.layer3, Cert.Sage.Ref.layer2, Cert.Sage.Ref.layer1]
  unfold Cert.KernelIdeal.Host.K3 Cert.KernelIdeal.Host.K2 Cert.KernelIdeal.Host.K1
  simp only [Cert.Sage.Agree.agg_eq e _ hw, Cert.Sage.Agree.cnt_eq e hw]

end Cert.Sage.Equiv

end
-- ==== Proof.lean ====
/-
  A three-layer mean-aggregating graph convolution: the kernel program against its reference.

  Per layer, with h the node features (100000 nodes, 64 features), A the sum over incoming edges of the sources' feature
  rows, and g the number of incoming edges clamped below at one, both programs compute

      ( Σ_k (A[p, k] / g[p]) · Wl[q, k]  +  Σ_k h[p, k] · Wr[q, k] )  +  b[q],

  clamped below at zero on the first two layers; the third has 32 output features and no clamp.  The kernel program lays
  A / g beside h, stacks the two transposed weight matrices, and runs one 128-wide product per block of 20000 nodes on the
  matrix unit, adding the bias last; the reference runs two 64-wide products and adds the bias between them.  A sum over
  64 + 64 positions is the sum of its halves and addition of extended reals is commutative and associative, so the two
  agree at every entry with no finiteness assumed.  The programs differ in one more place: the kernel program wraps
  negative destinations (d becomes d + 100000) before scattering, the reference scatters at the destinations as they
  stand and drops those outside the array.  The precondition says every destination is nonnegative, where wrapping is the
  identity; that is the only use of the precondition.  Gathering and scatter-adding are never opened: both programs apply
  them to equal operands.

  The frames of the two kernel programs are the generated frame certificates; the reference's frame is its generated run
  with the result dropped; the idealization rewrote no operation, so there is nothing to preserve.
-/
import proofs.«136993_j13142599925969_2_alg».proof.Defs
import proofs.«136993_j13142599925969_2_alg».proof.Proof.Gen.Kernel
import proofs.«136993_j13142599925969_2_alg».proof.Proof.Gen.Kernel.Skeleton
import proofs.«136993_j13142599925969_2_alg».proof.Proof.Gen.Kernel.Launch
import proofs.«136993_j13142599925969_2_alg».proof.Proof.Gen.Kernel.Points
import proofs.«136993_j13142599925969_2_alg».proof.Proof.Gen.Kernel.Frame
import proofs.«136993_j13142599925969_2_alg».proof.Proof.Gen.KernelIdeal
import proofs.«136993_j13142599925969_2_alg».proof.Proof.Gen.KernelIdeal.Skeleton
import proofs.«136993_j13142599925969_2_alg».proof.Proof.Gen.KernelIdeal.Launch
import proofs.«136993_j13142599925969_2_alg».proof.Proof.Gen.KernelIdeal.Points
import proofs.«136993_j13142599925969_2_alg».proof.Proof.Gen.KernelIdeal.Frame
import proofs.«136993_j13142599925969_2_alg».proof.Proof.Gen.ReferenceIdeal
import proofs.«136993_j13142599925969_2_alg».proof.Proof.Gen.Pre_finite_inputs
import proofs.«136993_j13142599925969_2_alg».proof.Proof.Gen.ReferenceIdeal.Run
import proofs.«136993_j13142599925969_2_alg».proof.Proof.Gen.ReferenceIdeal.Read
import proofs.«136993_j13142599925969_2_alg».proof.Proof.KernelRun
import proofs.«136993_j13142599925969_2_alg».proof.Proof.Equiv
import Idealize.ShloMosaic.Adequacy
import Idealize.ShloMosaic.Init

set_option maxRecDepth 16384

noncomputable section

namespace Cert.Proof

open Idealize.ShloMosaic Idealize.SL.Sem

/-- The kernel program as printed runs and leaves its arguments unchanged: its generated frame certificate. -/
theorem frame_p : Cert.frame_Kernel := fun m ρ _ => Cert.Kernel.Gen.frame m ρ

/-- The idealized kernel program, likewise. -/
theorem frame_pi : Cert.frame_KernelIdeal := fun m ρ _ => Cert.KernelIdeal.Gen.frame m ρ

/-- The reference runs and leaves its arguments unchanged: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs run, and both end with the three layers of the
    specification applied to the input features: the kernel program by its three launches, the reference by its host
    operations, the two neighbour collections agreeing because the precondition makes the wrap the identity. -/
theorem algebraic : Cert.algebraic_KernelIdeal_ReferenceIdeal := by
  intro m ρ m' ρ' hpre hagree
  refine ⟨fun c => Cert.KernelIdeal.Host.K3 (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono (fun r h c => ⟨(h c).1.trans (Cert.KernelIdeal.Host.out2 m ρ c), (h c).2⟩)
      (Cert.KernelIdeal.RunValue.run_named m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11⟩ := hagree c
    rw [Cert.ReferenceIdeal.Read.val_main_v83_eq, h0, h1, h3, h4, h5, h6, h7, h8, h9, h10, h11]
    exact (Cert.Sage.Equiv.K3_eq_ref _ (Cert.Sage.Equiv.wrap_dst m hpre c) _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
